-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S2x32 : Shape := ⟨2, ![2, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16384x2 .f32) (main_arg1 : FVec F S2x32 .f32) (main_arg2 : FVec F S32 .f32) (main_arg3 : FVec F S32x64 .f32) (main_arg4 : FVec F S64 .f32) (main_arg5 : FVec F S64x64 .f32) (main_arg6 : FVec F S64 .f32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S2x32 .f32 := Host.absf main_arg1
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_v13 main_v16
-- ==== Kernel.lean ====
abbrev S16384x2 : Shape := ⟨2, ![16384, 2]⟩
abbrev S2x32 : Shape := ⟨2, ![2, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S16384x64 : Shape := ⟨2, ![16384, 64]⟩
abbrev S1024x2 : Shape := ⟨2, ![1024, 2]⟩
abbrev S1024x64 : Shape := ⟨2, ![1024, 64]⟩
abbrev S1024x32 : Shape := ⟨2, ![1024, 32]⟩
abbrev S1x32 : Shape := ⟨2, ![1, 32]⟩
abbrev S1x64 : Shape := ⟨2, ![1, 64]⟩
abbrev S16384x16384 : Shape := ⟨2, ![16384, 16384]⟩
abbrev S128x64 : Shape := ⟨2, ![128, 64]⟩
abbrev S128x16384 : Shape := ⟨2, ![128, 16384]⟩
abbrev S128 : Shape := ⟨1, ![128]⟩
abbrev S128x1 : Shape := ⟨2, ![128, 1]⟩

abbrev nBuf : Space → Nat
  | .hbm => 9
  | .vmem => 15
  | .smem => 0
  | _ => 0

abbrev bufTy : (tb : Table) → Fin (tcTables nBuf tb) → BufTy
  | .hbm, ⟨0, _⟩ => ⟨S16384x2, .f32⟩
  | .hbm, ⟨1, _⟩ => ⟨S2x32, .f32⟩
  | .hbm, ⟨2, _⟩ => ⟨S32, .f32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S16384x64, .bf16⟩
  | .hbm, ⟨8, _⟩ => ⟨S16384x16384, .f32⟩
  | .local _ .vmem, ⟨0, _⟩ => ⟨S1024x2, .f32⟩
  | .local _ .vmem, ⟨1, _⟩ => ⟨S1024x2, .f32⟩
  | .local _ .vmem, ⟨2, _⟩ => ⟨S2x32, .f32⟩
  | .local _ .vmem, ⟨3, _⟩ => ⟨S32, .f32⟩
  | .local _ .vmem, ⟨4, _⟩ => ⟨S32x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S1024x64, .bf16⟩
  | .local _ .vmem, ⟨9, _⟩ => ⟨S1024x64, .bf16⟩
  | .local _ .vmem, ⟨10, _⟩ => ⟨S128x64, .bf16⟩
  | .local _ .vmem, ⟨11, _⟩ => ⟨S128x64, .bf16⟩
  | .local _ .vmem, ⟨12, _⟩ => ⟨S16384x64, .bf16⟩
  | .local _ .vmem, ⟨13, _⟩ => ⟨S128x16384, .f32⟩
  | .local _ .vmem, ⟨14, _⟩ => ⟨S128x16384, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1024x2_S1024x2_0_0 : ∀ a, (![0, 0] : Fin 2 → Nat) a + S1024x2.size a ≤ S1024x2.size a
  h_S1024x2 : 0 < S1024x2.numel
  inb_S2x32_S2x32_0_0 : ∀ a, (![0, 0] : Fin 2 → Nat) a + S2x32.size a ≤ S2x32.size a
  h_S2x32 : 0 < S2x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  reduces_S128x16384_S128 : S128x16384.Reduces [1] S128
  shapeCasts_S128_S128x1 : S128.ShapeCasts S128x1
  broadcasts_S128x1_S128x16384 : S128x1.Broadcasts S128x16384
  inb_S128x16384_S128x16384_0_0 : ∀ a, (![0, 0] : Fin 2 → Nat) a + S128x16384.size a ≤ S128x16384.size a
  h_S128x16384 : 0 < S128x16384.numel
  dot_S1024x2_S2x32_S1024x32_1_0_0_1_n_n_wf : DotDims.WF S1024x2 S2x32 S1024x32 [1] [0] [0] [1] [] []
  dot_S1024x32_S32x64_S1024x64_1_0_0_1_n_n_wf : DotDims.WF S1024x32 S32x64 S1024x64 [1] [0] [0] [1] [] []
  dot_S1024x64_S64x64_S1024x64_1_0_0_1_n_n_wf : DotDims.WF S1024x64 S64x64 S1024x64 [1] [0] [0] [1] [] []
  dot_S128x64_S16384x64_S128x16384_1_1_0_0_n_n_wf : DotDims.WF S128x64 S16384x64 S128x16384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S16384x2.size a
  hwx0_0 : ∀ i : grid0.Coords, EltTy.bits .f32 = 32 ∨ (Rect.block (s := S16384x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x32.size a ≤ S2x32.size a
  hwx0_1 : ∀ i : grid0.Coords, EltTy.bits .f32 = 32 ∨ (Rect.block (s := S2x32) S2x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S16384x64.size a
  hwx0_7 : ∀ i : grid0.Coords, EltTy.bits .bf16 = 32 ∨ (Rect.block (s := S16384x64) S1024x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64.size a ≤ S16384x64.size a
  hwx1_0 : ∀ i : grid1.Coords, EltTy.bits .bf16 = 32 ∨ (Rect.block (s := S16384x64) S128x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .bf16 = 32 ∨ (Rect.block (s := S16384x64) S16384x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x16384.size a ≤ S16384x16384.size a
  hwx1_2 : ∀ i : grid1.Coords, EltTy.bits .f32 = 32 ∨ (Rect.block (s := S16384x16384) S128x16384.size (cc1_transform_2 i) (hinb1_2 i)).WholeWords (EltTy.packing .f32)

variable [Facts₀]

def dot_S1024x2_S2x32_S1024x32_1_0_0_1_n_n : DotDims S1024x2 S2x32 S1024x32 where
  lhsContracting := [1]
  rhsContracting := [0]
  lhsNonContracting := [0]
  rhsNonContracting := [1]
  lhsBatch := []
  rhsBatch := []
  wf := dot_S1024x2_S2x32_S1024x32_1_0_0_1_n_n_wf
def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S128x64_S16384x64_S128x16384_1_1_0_0_n_n : DotDims S128x64 S16384x64 S128x16384 where
  lhsContracting := [1]
  rhsContracting := [1]
  lhsNonContracting := [0]
  rhsNonContracting := [0]
  lhsBatch := []
  rhsBatch := []
  wf := dot_S128x64_S16384x64_S128x16384_1_1_0_0_n_n_wf

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x2 : Shape := ⟨2, ![16384, 2]⟩
abbrev S2x32 : Shape := ⟨2, ![2, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S16384x32 : Shape := ⟨2, ![16384, 32]⟩
abbrev S1x32 : Shape := ⟨2, ![1, 32]⟩
abbrev S_ : Shape := ⟨0, ![]⟩
abbrev S16384x64 : Shape := ⟨2, ![16384, 64]⟩
abbrev S1x64 : Shape := ⟨2, ![1, 64]⟩
abbrev S16384x16384 : Shape := ⟨2, ![16384, 16384]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S2x32, .f32⟩
  | .hbm, ⟨2, _⟩ => ⟨S32, .f32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S16384x32, .f32⟩
  | .hbm, ⟨8, _⟩ => ⟨S1x32, .f32⟩
  | .hbm, ⟨9, _⟩ => ⟨S16384x32, .f32⟩
  | .hbm, ⟨10, _⟩ => ⟨S16384x32, .f32⟩
  | .hbm, ⟨11, _⟩ => ⟨S_, .f32⟩
  | .hbm, ⟨12, _⟩ => ⟨S16384x32, .f32⟩
  | .hbm, ⟨13, _⟩ => ⟨S16384x32, .f32⟩
  | .hbm, ⟨14, _⟩ => ⟨S16384x64, .f32⟩
  | .hbm, ⟨15, _⟩ => ⟨S1x64, .f32⟩
  | .hbm, ⟨16, _⟩ => ⟨S16384x64, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S1x64, .f32⟩
  | .hbm, ⟨23, _⟩ => ⟨S16384x64, .f32⟩
  | .hbm, ⟨24, _⟩ => ⟨S16384x64, .f32⟩
  | .hbm, ⟨25, _⟩ => ⟨S16384x16384, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384x1, .f32⟩
  | .hbm, ⟨32, _⟩ => ⟨S16384x16384, .f32⟩
  | .hbm, ⟨33, _⟩ => ⟨S16384x16384, .f32⟩
  | .hbm, ⟨34, _⟩ => ⟨S16384x16384, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x16384, .f32⟩
  | .hbm, ⟨39, _⟩ => ⟨S16384x16384, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  dot_S16384x2_S2x32_S16384x32_1_0_0_1_n_n_wf : DotDims.WF S16384x2 S2x32 S16384x32 [1] [0] [0] [1] [] []
  dot_S16384x32_S32x64_S16384x64_1_0_0_1_n_n_wf : DotDims.WF S16384x32 S32x64 S16384x64 [1] [0] [0] [1] [] []
  dot_S16384x64_S64x64_S16384x64_1_0_0_1_n_n_wf : DotDims.WF S16384x64 S64x64 S16384x64 [1] [0] [0] [1] [] []
  dot_S16384x64_S16384x64_S16384x16384_1_1_0_0_n_n_wf : DotDims.WF S16384x64 S16384x64 S16384x16384 [1] [1] [0] [0] [] []

variable [Facts₀]

def dot_S16384x2_S2x32_S16384x32_1_0_0_1_n_n : DotDims S16384x2 S2x32 S16384x32 where
  lhsContracting := [1]
  rhsContracting := [0]
  lhsNonContracting := [0]
  rhsNonContracting := [1]
  lhsBatch := []
  rhsBatch := []
  wf := dot_S16384x2_S2x32_S16384x32_1_0_0_1_n_n_wf
def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S16384x64_S16384x16384_1_1_0_0_n_n : DotDims S16384x64 S16384x64 S16384x16384 where
  lhsContracting := [1]
  rhsContracting := [1]
  lhsNonContracting := [0]
  rhsNonContracting := [0]
  lhsBatch := []
  rhsBatch := []
  wf := dot_S16384x64_S16384x64_S16384x16384_1_1_0_0_n_n_wf

class Facts : Prop extends Facts₀ where

variable [Facts]
-- ==== Proof.MlpRegionBits.lean ====
/-
  The frame half of the first kernel's region, for the program as printed at the word level.
-/
import proofs.«151815_j9320079033049_2_alg».proof.Proof.Gen.Kernel.Launch
import proofs.«151815_j9320079033049_2_alg».proof.Proof.Gen.Kernel.Skeleton
import proofs.«151815_j9320079033049_2_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's region (the perceptron), at the contents `V` its region is entered with

The body loads its seven input blocks whole, computes, and stores its one output block whole; so what the output's
staging buffer holds after the body is one function of the seven input blocks. -/

section Mlp
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S1024x2 := Rect.unit (s := S1024x2) ![0, 0] S1024x2.size inb_S1024x2_S1024x2_0_0
abbrev r0_1 : Rect S2x32 := Rect.unit (s := S2x32) ![0, 0] S2x32.size inb_S2x32_S2x32_0_0
abbrev r0_2 : Rect S32 := Rect.unit (s := S32) ![0] S32.size inb_S32_S32_0
abbrev r0_3 : Rect S32x64 := Rect.unit (s := S32x64) ![0, 0] S32x64.size inb_S32x64_S32x64_0_0
abbrev r0_4 : Rect S64 := Rect.unit (s := S64) ![0] S64.size inb_S64_S64_0
abbrev r0_5 : Rect S64x64 := Rect.unit (s := S64x64) ![0, 0] S64x64.size inb_S64x64_S64x64_0_0
abbrev r0_6 : Rect S64 := Rect.unit (s := S64) ![0] S64.size inb_S64_S64_0
abbrev r0_7 : Rect S1024x64 := Rect.unit (s := S1024x64) ![0, 0] S1024x64.size inb_S1024x64_S1024x64_0_0

/-- The output's staging buffer after the body, from the seven input blocks: its one store. -/
def out0_7 (x0 : Vec F S1024x2 .f32) (x1 : Vec F S2x32 .f32) (x2 : Vec F S32 .f32) (x3 : Vec F S32x64 .f32) (x4 : Vec F S64 .f32) (x5 : Vec F S64x64 .f32) (x6 : Vec F S64 .f32) : Vec F S1024x64 .bf16 :=
  View.canon [⟨r0_7, k0_pay1 (View.ld x0 r0_0) (View.ld x1 r0_1) (View.ld x2 r0_2) (View.ld x3 r0_3) (View.ld x4 r0_4) (View.ld x5 r0_5) (View.ld x6 r0_6)⟩]

theorem zero2 : (![0, 0] : Fin 2 → Nat) = fun _ => 0 := funext fun a => by
  match a with
  | ⟨0, _⟩ => rfl
  | ⟨1, _⟩ => rfl
theorem zero1 : (![0] : Fin 1 → Nat) = fun _ => 0 := funext fun a => by
  match a with
  | ⟨0, _⟩ => rfl

/-- The one store covers the buffer. -/
theorem cover0_7 (p0 : Vec F S1024x64 .bf16) (y : S1024x64.Idx) :
    ∃ pc ∈ ([⟨r0_7, p0⟩] : List (View.Piece (Elt F) S1024x64 .bf16)), y ∈ pc.1.set :=
  ⟨_, List.mem_singleton_self _, View.mem_set_unit_zero zero2 inb_S1024x64_S1024x64_0_0 y⟩

set_option maxHeartbeats 1000000 in
/-- The body on whole staging memrefs, the inputs' at contents `xW` and the output's at anything, runs to the
    continuation holding the inputs' as they were and the output's at `out0_7` of the inputs'. -/
theorem sound_kernel0 (c : Dev nD) (E : Set ℕ) (i : grid0.Coords)
    (arg0 : Memref sig .tc .vmem S1024x2 .f32) (harg0 : arg0.IsWhole) (arg1 : Memref sig .tc .vmem S2x32 .f32) (harg1 : arg1.IsWhole) (arg2 : Memref sig .tc .vmem S32 .f32) (harg2 : arg2.IsWhole) (arg3 : Memref sig .tc .vmem S32x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S1024x64 .bf16) (harg7 : arg7.IsWhole)
    (x0 : Vec F S1024x2 .f32) (x1 : Vec F S2x32 .f32) (x2 : Vec F S32 .f32) (x3 : Vec F S32x64 .f32) (x4 : Vec F S64 .f32) (x5 : Vec F S64x64 .f32) (x6 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__mlp_kernel i arg0 harg0 arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The proof data -/

/-- The arrays as the region finds them; after the body at point `t` each input's buffer at its block and the output's at
    `out0_7` of the input blocks; the invariant carries the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Mlp

end Cert.Kernel.Fr

end
-- ==== Proof.SoftmaxRegionBits.lean ====
/-
  The frame half of the second kernel's region, for the program as printed at the word level.
-/
import proofs.«151815_j9320079033049_2_alg».proof.Proof.Gen.Kernel.Launch
import proofs.«151815_j9320079033049_2_alg».proof.Proof.Gen.Kernel.Skeleton
import proofs.«151815_j9320079033049_2_alg».proof.Proof.Gen.Kernel.Points
import proofs.«151815_j9320079033049_2_alg».proof.Proof.MlpRegionBits
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's region (the row softmax), at the contents `V` its region is entered with

Two of its windows read ONE array — the feature table, once block of rows by block of rows and once whole — so the
proof data holds that array at two half shares, one per window; the third window is the output. The body loads the
two input blocks whole and stores the output block whole. -/

section Softmax
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S128x64 := Rect.unit (s := S128x64) ![0, 0] S128x64.size inb_S128x64_S128x64_0_0
abbrev r1_1 : Rect S16384x64 := Rect.unit (s := S16384x64) ![0, 0] S16384x64.size inb_S16384x64_S16384x64_0_0
abbrev r1_2 : Rect S128x16384 := Rect.unit (s := S128x16384) ![0, 0] S128x16384.size inb_S128x16384_S128x16384_0_0

/-- The output's staging buffer after the body, from the two input blocks: its one store. -/
def out1_2 (x0 : Vec F S128x64 .bf16) (x1 : Vec F S16384x64 .bf16) : Vec F S128x16384 .f32 :=
  View.canon [⟨r1_2, k1_pay1 (View.ld x0 r1_0) (View.ld x1 r1_1)⟩]

/-- The one store covers the buffer. -/
theorem cover1_2 (p0 : Vec F S128x16384 .f32) (y : S128x16384.Idx) :
    ∃ pc ∈ ([⟨r1_2, p0⟩] : List (View.Piece (Elt F) S128x16384 .f32)), y ∈ pc.1.set :=
  ⟨_, List.mem_singleton_self _, View.mem_set_unit_zero zero2 inb_S128x16384_S128x16384_0_0 y⟩

set_option maxHeartbeats 1000000 in
/-- The body on whole staging memrefs, the inputs' at contents `xW` and the output's at anything, runs to the
    continuation holding the inputs' as they were and the output's at `out1_2` of the inputs'. -/
theorem sound_kernel1 (c : Dev nD) (E : Set ℕ) (i : grid1.Coords)
    (arg0 : Memref sig .tc .vmem S128x64 .bf16) (harg0 : arg0.IsWhole) (arg1 : Memref sig .tc .vmem S16384x64 .bf16) (harg1 : arg1.IsWhole) (arg2 : Memref sig .tc .vmem S128x16384 .f32) (harg2 : arg2.IsWhole)
    (x0 : Vec F S128x64 .bf16) (x1 : Vec F S16384x64 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__softmax_kernel i arg0 harg0 arg1 harg1 arg2 harg2) K := by
  simp only [cc1__softmax_kernel_eq_skeleton]; unfold cc1__softmax_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The arrays as the region finds them; after the body at point `t` each input's buffer at its block and the output's at
    `out1_2` of the input blocks; the shared input array held at the left half share for the row-block window and at the
    right half for the whole-table window; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Softmax

end Cert.Kernel.Fr

end
-- ==== Proof.RunBits.lean ====
/-
  The two kernel regions run one after the other, for the program as printed at the word level: the frame.
-/
import proofs.«151815_j9320079033049_2_alg».proof.Proof.Gen.Kernel.Launch
import proofs.«151815_j9320079033049_2_alg».proof.Proof.Gen.Kernel.Skeleton
import proofs.«151815_j9320079033049_2_alg».proof.Proof.Gen.Kernel.Points
import proofs.«151815_j9320079033049_2_alg».proof.Proof.SoftmaxRegionBits
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the two regions one after the other, from the launch to the return

Between the regions a core's unscoped buffers hold: at launch the memory it was launched on; after the first region the
same with the feature table's buffer at what the write-backs of the first kernel leave; after the second region that
with the result's buffer at what the write-backs of the second kernel leave. No host operation runs. -/

variable (m : (ℓ : Loc nD τ sig) → Buf (Elt F) ℓ) (ρ : Dev nD → PrngReg)

/-- A core's buffers at launch. -/
abbrev W0 : Dev nD → Valuation τ sig (Elt F) := fun c b => m (c, b)
/-- The same read at the TensorCore's references (what the first region's proof data take). -/
abbrev Vr0 : (c : Dev nD) → (b : Ref sig .tc) → Buf (Elt F) ((c : Thread nD τ).loc b) := fun c b => W0 m c b
/-- After the first region: its arrays at what the pipeline leaves, every other buffer as launched. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (what the second region's proof data take). -/
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- What the second region leaves in the result's buffer. -/
def res (c : Dev nD) : Buf (Elt F) ((c : Thread nD τ).loc main_v1) := (dat1 (Vr1 m) c).arrAt 2 cfg1.N

/-- After the second region: the result's buffer at what the pipeline leaves, every other buffer as before it (its
    two input windows read the feature table and write nothing back). -/
def W2 (c : Dev nD) : Valuation τ sig (Elt F) := Function.update (W1 m c) main_v1 (res m c)
abbrev Vr2 : (c : Dev nD) → (b : Ref sig .tc) → Buf (Elt F) ((c : Thread nD τ).loc b) := fun c b => W2 m c b
theorem W2_res (c : Dev nD) : W2 m c (Proc.devRef .tc main_v1) = res m c := by
  unfold W2; exact Function.update_self _ _ _
theorem W2_of_ne (c : Dev nD) (b : Ref sig .tc) (hb : b ≠ main_v1) :
    W2 m c (Proc.devRef .tc b) = W1 m c (Proc.devRef .tc b) := by
  unfold W2; exact Function.update_of_ne (StableHlo.devRef_ne_of_ne hb) _ _

/-! ### The arguments end as launched -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (Vr0 m) c).arrAt_in 0 rfl _).trans (A_eq0 (Vr0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 1).trans (((dat0 (Vr0 m) c).arrAt_in 1 rfl _).trans (A_eq0 (Vr0 m) c 1))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 2).trans (((dat0 (Vr0 m) c).arrAt_in 2 rfl _).trans (A_eq0 (Vr0 m) c 2))
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 3).trans (((dat0 (Vr0 m) c).arrAt_in 3 rfl _).trans (A_eq0 (Vr0 m) c 3))
    _ = m ((c : Thread nD τ).loc main_arg3) := rfl
theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := (W1_arr m c 4).trans (((dat0 (Vr0 m) c).arrAt_in 4 rfl _).trans (A_eq0 (Vr0 m) c 4))
    _ = m ((c : Thread nD τ).loc main_arg4) := rfl
theorem W2_main_arg5 (c : Dev nD) : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := (W1_arr m c 5).trans (((dat0 (Vr0 m) c).arrAt_in 5 rfl _).trans (A_eq0 (Vr0 m) c 5))
    _ = m ((c : Thread nD τ).loc main_arg5) := rfl
theorem W2_main_arg6 (c : Dev nD) : W2 m c (Proc.devRef .tc main_arg6) = m ((c : Thread nD τ).loc main_arg6) :=
  calc W2 m c (Proc.devRef .tc main_arg6)
    _ = W1 m c (Proc.devRef .tc main_arg6) := W2_of_ne m c main_arg6 (by decide)
    _ = W0 m c (Proc.devRef .tc main_arg6) := (W1_arr m c 6).trans (((dat0 (Vr0 m) c).arrAt_in 6 rfl _).trans (A_eq0 (Vr0 m) c 6))
    _ = m ((c : Thread nD τ).loc main_arg6) := rfl

/-! ## The proof data family and the thread state -/

/-- No pipeline has a prefetched table. -/
abbrev noTables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) noTables p) c
  | ⟨0, _⟩ => fun c => dat0 (Vr0 m) c
  | ⟨1, _⟩ => fun c => dat1 (Vr1 m) c
abbrev 𝒱₀ : Variants := Variants.none
abbrev L : GSem nD τ sig → Finset Unit := fun _ => ∅
abbrev lv : GSem nD τ sig → Unit → ℕ := fun _ _ => 0
/-- What rides beside the buffers: the core's generator register at some state and its dues, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The second region's arrays: one buffer behind two windows -/

section Shared
variable (V : (c : Dev nD) → (b : Ref sig .tc) → Buf (Elt F) ((c : Thread nD τ).loc b))

/-- The distinct buffers behind the second region's three windows are two: the feature table's and the result's. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_v1) ↦{fullShare} V' main_v1)) := by
  unfold Pipeline.arrBufs
  exact bigSep_eq_bigSepL_of_eq [main_v0, main_v1] (by decide) (by decide) _

/-- The proof data's arrays, window by window: the feature table's buffer at the left half share and at the right half
    share, the result's at the full share. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  unfold Dat.arrays
  rw [bigSep_W1]
  simp only [(arr_whole1 0).set_eq_univ, (arr_whole1 1).set_eq_univ, (arr_whole1 2).set_eq_univ]
  rfl

/-- ENTRY: a core's unscoped buffers at `V` are the second region's arrays at the proof data's entry contents — the
    feature table's full share split in its two halves, one per window that reads it — and the unscoped rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  have hs : (unscopedBufs (Ix := Unit) (Name := ℕ) (U := UR sig nD τ) (Lvl := ℕ) c (V c) : sProp 𝕄)
      = iprop(Pipeline.arrBufs spec1 c (V c) ∗ Pipeline.unscopedRest spec1 c (V c)) :=
    Pipeline.unscopedBufs_split₀ cfgs (1 : Fin 2) winFacts₀1.arr_unscoped c (V c)
  rw [hs, arrBufs1_eq, arrays1_eq]
  iintro ⟨⟨H0, H1⟩, Hr⟩
  ihave H0' := (pointsTo_share (PosShare.mem_left_op_right fullShare)).1 $$ H0
  icases H0' with ⟨Hl, Hrr⟩
  isplitr [Hr]
  · isplitl [Hl]; · iexact Hl
    isplitl [Hrr]; · iexact Hrr
    iexact H1
  · iexact Hr

/-- EXIT: the arrays at what the pipeline leaves — the feature table as entered, at its two half shares, the result at its
    final contents — and the unscoped rest are the core's unscoped buffers at any valuation that has the result there
    and agrees with `V` elsewhere. -/
theorem exit1 (c : Dev nD) (V' : (b : Ref sig .tc) → Buf (Elt F) ((c : Thread nD τ).loc b))
    (h0 : V' main_v0 = V c main_v0) (h1 : V' main_v1 = (dat1 V c).arrAt 2 cfg1.N)
    (hrest : ∀ b, b ∉ Finset.univ.image (Pipeline.arrRef spec1) → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have hs : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs (1 : Fin 2) winFacts₀1.arr_unscoped c V'
  rw [hs, arrBufs1_eq, arrays1_eq,
    (dat1 V c).arrAt_in 0 rfl cfg1.N, (dat1 V c).arrAt_in 1 rfl cfg1.N, h0, h1]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨Hl, Hrr, H1⟩, Hr⟩
  isplitr [Hr]
  · isplitl [Hl Hrr]
    · iapply (pointsTo_share (PosShare.mem_left_op_right fullShare)).2
      isplitl [Hl]; · iexact Hl
      iexact Hrr
    · iexact H1
  · iexact Hr

end Shared

/-! ## The regions as segments -/

set_option backward.isDefEq.respectTransparency.types false in
/-- The first region over the thread state: entered from every unscoped buffer as launched, left at `W1`. -/
def reg0 : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W1`, left at `W2`. Its windows
    share an array, so the arrays are sorted out of the unscoped buffers by `entry1` and put back by `exit1`. -/
def reg1 : Pipeline.RegionSeg (pcfgs (F := F)) noTables (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit : (unscopedBufs (Ix := Unit) (Name := ℕ) (U := UR sig nD τ) (Lvl := ℕ) c (Vr1 m c) : sProp 𝕄)
        ⊢ iprop((pdats m 1 c).arrays ((pdats m 1 c).arrAt · 0)
          ∗ Pipeline.unscopedRest (Ix := Unit) (Name := ℕ) (U := UR sig nD τ) (Lvl := ℕ) spec1 c (Vr1 m c)) := entry1 (Vr1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (Vr1 m c))
        ⊢ (unscopedBufs (Ix := Unit) (Name := ℕ) (U := UR sig nD τ) (Lvl := ℕ) c (Vr2 m c) : sProp 𝕄) :=
      exit1 (Vr1 m) c (Vr2 m c) (W2_of_ne m c main_v0 (by decide)) (W2_res m c)
        (fun b hb => W2_of_ne m c b fun e => hb (e ▸ (by decide : main_v1 ∈ Finset.univ.image (Pipeline.arrRef spec1))))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) noTables (pdats m) () defs₀ 𝒱₀ L lv) :=
  [ .region (reg0 m), .region (reg1 m) ]
/-- @main is the run of the two regions in order. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and in every final state each core's unscoped buffers hold the last boundary's contents `W2`:
    the arguments as launched, the result at what the second region's write-backs leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) noTables (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: every argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c => ⟨(h c _ (mem_uc main_arg0 (by decide))).trans (W2_main_arg0 m c),
    (h c _ (mem_uc main_arg1 (by decide))).trans (W2_main_arg1 m c),
    (h c _ (mem_uc main_arg2 (by decide))).trans (W2_main_arg2 m c),
    (h c _ (mem_uc main_arg3 (by decide))).trans (W2_main_arg3 m c),
    (h c _ (mem_uc main_arg4 (by decide))).trans (W2_main_arg4 m c),
    (h c _ (mem_uc main_arg5 (by decide))).trans (W2_main_arg5 m c),
    (h c _ (mem_uc main_arg6 (by decide))).trans (W2_main_arg6 m c)⟩) (run m ρ)

end Cert.Kernel.Fr

end
-- ==== Proof.MlpRegionIdeal.lean ====
/-
  The frame half of the first kernel's region, at any float instance.
-/
import proofs.«151815_j9320079033049_2_alg».proof.Proof.Gen.KernelIdeal.Launch
import proofs.«151815_j9320079033049_2_alg».proof.Proof.Gen.KernelIdeal.Skeleton
import proofs.«151815_j9320079033049_2_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's region (the perceptron), at the contents `V` its region is entered with

The body loads its seven input blocks whole, computes, and stores its one output block whole; so what the output's
staging buffer holds after the body is one function of the seven input blocks. -/

section Mlp
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_0 : Rect S1024x2 := Rect.unit (s := S1024x2) ![0, 0] S1024x2.size inb_S1024x2_S1024x2_0_0
abbrev r0_1 : Rect S2x32 := Rect.unit (s := S2x32) ![0, 0] S2x32.size inb_S2x32_S2x32_0_0
abbrev r0_2 : Rect S32 := Rect.unit (s := S32) ![0] S32.size inb_S32_S32_0
abbrev r0_3 : Rect S32x64 := Rect.unit (s := S32x64) ![0, 0] S32x64.size inb_S32x64_S32x64_0_0
abbrev r0_4 : Rect S64 := Rect.unit (s := S64) ![0] S64.size inb_S64_S64_0
abbrev r0_5 : Rect S64x64 := Rect.unit (s := S64x64) ![0, 0] S64x64.size inb_S64x64_S64x64_0_0
abbrev r0_6 : Rect S64 := Rect.unit (s := S64) ![0] S64.size inb_S64_S64_0
abbrev r0_7 : Rect S1024x64 := Rect.unit (s := S1024x64) ![0, 0] S1024x64.size inb_S1024x64_S1024x64_0_0

/-- The output's staging buffer after the body, from the seven input blocks: its one store. -/
def out0_7 (x0 : Vec F S1024x2 .f32) (x1 : Vec F S2x32 .f32) (x2 : Vec F S32 .f32) (x3 : Vec F S32x64 .f32) (x4 : Vec F S64 .f32) (x5 : Vec F S64x64 .f32) (x6 : Vec F S64 .f32) : Vec F S1024x64 .bf16 :=
  View.canon [⟨r0_7, k0_pay1 (View.ld x0 r0_0) (View.ld x1 r0_1) (View.ld x2 r0_2) (View.ld x3 r0_3) (View.ld x4 r0_4) (View.ld x5 r0_5) (View.ld x6 r0_6)⟩]

theorem zero2 : (![0, 0] : Fin 2 → Nat) = fun _ => 0 := funext fun a => by
  match a with
  | ⟨0, _⟩ => rfl
  | ⟨1, _⟩ => rfl
theorem zero1 : (![0] : Fin 1 → Nat) = fun _ => 0 := funext fun a => by
  match a with
  | ⟨0, _⟩ => rfl

/-- The one store covers the buffer. -/
theorem cover0_7 (p0 : Vec F S1024x64 .bf16) (y : S1024x64.Idx) :
    ∃ pc ∈ ([⟨r0_7, p0⟩] : List (View.Piece (Elt F) S1024x64 .bf16)), y ∈ pc.1.set :=
  ⟨_, List.mem_singleton_self _, View.mem_set_unit_zero zero2 inb_S1024x64_S1024x64_0_0 y⟩

set_option maxHeartbeats 1000000 in
/-- The body on whole staging memrefs, the inputs' at contents `xW` and the output's at anything, runs to the
    continuation holding the inputs' as they were and the output's at `out0_7` of the inputs'. -/
theorem sound_kernel0 (c : Dev nD) (E : Set ℕ) (i : grid0.Coords)
    (arg0 : Memref sig .tc .vmem S1024x2 .f32) (harg0 : arg0.IsWhole) (arg1 : Memref sig .tc .vmem S2x32 .f32) (harg1 : arg1.IsWhole) (arg2 : Memref sig .tc .vmem S32 .f32) (harg2 : arg2.IsWhole) (arg3 : Memref sig .tc .vmem S32x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S1024x64 .bf16) (harg7 : arg7.IsWhole)
    (x0 : Vec F S1024x2 .f32) (x1 : Vec F S2x32 .f32) (x2 : Vec F S32 .f32) (x3 : Vec F S32x64 .f32) (x4 : Vec F S64 .f32) (x5 : Vec F S64x64 .f32) (x6 : Vec F S64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__mlp_kernel i arg0 harg0 arg1 harg1 arg2 harg2 arg3 harg3 arg4 harg4 arg5 harg5 arg6 harg6 arg7 harg7) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The proof data -/

/-- The arrays as the region finds them; after the body at point `t` each input's buffer at its block and the output's at
    `out0_7` of the input blocks; the invariant carries the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end Mlp

end Cert.KernelIdeal.Fr

end
-- ==== Proof.SoftmaxRegionIdeal.lean ====
/-
  The frame half of the second kernel's region, at any float instance.
-/
import proofs.«151815_j9320079033049_2_alg».proof.Proof.Gen.KernelIdeal.Launch
import proofs.«151815_j9320079033049_2_alg».proof.Proof.Gen.KernelIdeal.Skeleton
import proofs.«151815_j9320079033049_2_alg».proof.Proof.Gen.KernelIdeal.Points
import proofs.«151815_j9320079033049_2_alg».proof.Proof.MlpRegionIdeal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's region (the row softmax), at the contents `V` its region is entered with

Two of its windows read ONE array — the feature table, once block of rows by block of rows and once whole — so the
proof data holds that array at two half shares, one per window; the third window is the output. The body loads the
two input blocks whole and stores the output block whole. -/

section Softmax
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S128x64 := Rect.unit (s := S128x64) ![0, 0] S128x64.size inb_S128x64_S128x64_0_0
abbrev r1_1 : Rect S16384x64 := Rect.unit (s := S16384x64) ![0, 0] S16384x64.size inb_S16384x64_S16384x64_0_0
abbrev r1_2 : Rect S128x16384 := Rect.unit (s := S128x16384) ![0, 0] S128x16384.size inb_S128x16384_S128x16384_0_0

/-- The output's staging buffer after the body, from the two input blocks: its one store. -/
def out1_2 (x0 : Vec F S128x64 .bf16) (x1 : Vec F S16384x64 .bf16) : Vec F S128x16384 .f32 :=
  View.canon [⟨r1_2, k1_pay1 (View.ld x0 r1_0) (View.ld x1 r1_1)⟩]

/-- The one store covers the buffer. -/
theorem cover1_2 (p0 : Vec F S128x16384 .f32) (y : S128x16384.Idx) :
    ∃ pc ∈ ([⟨r1_2, p0⟩] : List (View.Piece (Elt F) S128x16384 .f32)), y ∈ pc.1.set :=
  ⟨_, List.mem_singleton_self _, View.mem_set_unit_zero zero2 inb_S128x16384_S128x16384_0_0 y⟩

set_option maxHeartbeats 1000000 in
/-- The body on whole staging memrefs, the inputs' at contents `xW` and the output's at anything, runs to the
    continuation holding the inputs' as they were and the output's at `out1_2` of the inputs'. -/
theorem sound_kernel1 (c : Dev nD) (E : Set ℕ) (i : grid1.Coords)
    (arg0 : Memref sig .tc .vmem S128x64 .bf16) (harg0 : arg0.IsWhole) (arg1 : Memref sig .tc .vmem S16384x64 .bf16) (harg1 : arg1.IsWhole) (arg2 : Memref sig .tc .vmem S128x16384 .f32) (harg2 : arg2.IsWhole)
    (x0 : Vec F S128x64 .bf16) (x1 : Vec F S16384x64 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__softmax_kernel i arg0 harg0 arg1 harg1 arg2 harg2) K := by
  simp only [cc1__softmax_kernel_eq_skeleton]; unfold cc1__softmax_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The arrays as the region finds them; after the body at point `t` each input's buffer at its block and the output's at
    `out1_2` of the input blocks; the shared input array held at the left half share for the row-block window and at the
    right half for the whole-table window; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Softmax

end Cert.KernelIdeal.Fr

end
-- ==== Proof.RunIdeal.lean ====
/-
  The two kernel regions run one after the other: the frame, and what the result's buffer holds at the end, at any
  float instance.
-/
import proofs.«151815_j9320079033049_2_alg».proof.Proof.Gen.KernelIdeal.Launch
import proofs.«151815_j9320079033049_2_alg».proof.Proof.Gen.KernelIdeal.Skeleton
import proofs.«151815_j9320079033049_2_alg».proof.Proof.Gen.KernelIdeal.Points
import proofs.«151815_j9320079033049_2_alg».proof.Proof.SoftmaxRegionIdeal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the two regions one after the other, from the launch to the return

Between the regions a core's unscoped buffers hold: at launch the memory it was launched on; after the first region the
same with the feature table's buffer at what the write-backs of the first kernel leave; after the second region that
with the result's buffer at what the write-backs of the second kernel leave. No host operation runs. -/

variable (m : (ℓ : Loc nD τ sig) → Buf (Elt F) ℓ) (ρ : Dev nD → PrngReg)

/-- A core's buffers at launch. -/
abbrev W0 : Dev nD → Valuation τ sig (Elt F) := fun c b => m (c, b)
/-- The same read at the TensorCore's references (what the first region's proof data take). -/
abbrev Vr0 : (c : Dev nD) → (b : Ref sig .tc) → Buf (Elt F) ((c : Thread nD τ).loc b) := fun c b => W0 m c b
/-- After the first region: its arrays at what the pipeline leaves, every other buffer as launched. -/
def W1 (c : Dev nD) : Valuation τ sig (Elt F) :=
  Pipeline.withArrays spec0 c (W0 m c) fun w => (dat0 (Vr0 m) c).arrAt w cfg0.N
theorem W1_arr (c : Dev nD) (w : Fin cfg0.W) :
    W1 m c (Proc.devRef .tc (Pipeline.arrRef spec0 w)) = (dat0 (Vr0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (what the second region's proof data take). -/
abbrev Vr1 : (c : Dev nD) → (b : Ref sig .tc) → Buf (Elt F) ((c : Thread nD τ).loc b) := fun c b => W1 m c b
theorem hF0 (c : Dev nD) (w : Fin cfg0.W) : (dat0 (Vr0 m) c).arrAt w cfg0.N = Vr1 m c (Pipeline.arrRef spec0 w) :=
  (W1_arr m c w).symm
theorem hrest0 (c : Dev nD) : ∀ b, b ∉ Finset.univ.image (Pipeline.arrRef spec0) → Vr1 m c b = Vr0 m c b :=
  fun b hb => W1_of_ne m c b fun w e => hb (Finset.mem_image.mpr ⟨w, Finset.mem_univ _, e⟩)

/-- What the second region leaves in the result's buffer. -/
def res (c : Dev nD) : Buf (Elt F) ((c : Thread nD τ).loc main_v1) := (dat1 (Vr1 m) c).arrAt 2 cfg1.N

/-- After the second region: the result's buffer at what the pipeline leaves, every other buffer as before it (its
    two input windows read the feature table and write nothing back). -/
def W2 (c : Dev nD) : Valuation τ sig (Elt F) := Function.update (W1 m c) main_v1 (res m c)
abbrev Vr2 : (c : Dev nD) → (b : Ref sig .tc) → Buf (Elt F) ((c : Thread nD τ).loc b) := fun c b => W2 m c b
theorem W2_res (c : Dev nD) : W2 m c (Proc.devRef .tc main_v1) = res m c := by
  unfold W2; exact Function.update_self _ _ _
theorem W2_of_ne (c : Dev nD) (b : Ref sig .tc) (hb : b ≠ main_v1) :
    W2 m c (Proc.devRef .tc b) = W1 m c (Proc.devRef .tc b) := by
  unfold W2; exact Function.update_of_ne (StableHlo.devRef_ne_of_ne hb) _ _

/-! ### The arguments end as launched -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (Vr0 m) c).arrAt_in 0 rfl _).trans (A_eq0 (Vr0 m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 1).trans (((dat0 (Vr0 m) c).arrAt_in 1 rfl _).trans (A_eq0 (Vr0 m) c 1))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 2).trans (((dat0 (Vr0 m) c).arrAt_in 2 rfl _).trans (A_eq0 (Vr0 m) c 2))
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 3).trans (((dat0 (Vr0 m) c).arrAt_in 3 rfl _).trans (A_eq0 (Vr0 m) c 3))
    _ = m ((c : Thread nD τ).loc main_arg3) := rfl
theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := (W1_arr m c 4).trans (((dat0 (Vr0 m) c).arrAt_in 4 rfl _).trans (A_eq0 (Vr0 m) c 4))
    _ = m ((c : Thread nD τ).loc main_arg4) := rfl
theorem W2_main_arg5 (c : Dev nD) : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := (W1_arr m c 5).trans (((dat0 (Vr0 m) c).arrAt_in 5 rfl _).trans (A_eq0 (Vr0 m) c 5))
    _ = m ((c : Thread nD τ).loc main_arg5) := rfl
theorem W2_main_arg6 (c : Dev nD) : W2 m c (Proc.devRef .tc main_arg6) = m ((c : Thread nD τ).loc main_arg6) :=
  calc W2 m c (Proc.devRef .tc main_arg6)
    _ = W1 m c (Proc.devRef .tc main_arg6) := W2_of_ne m c main_arg6 (by decide)
    _ = W0 m c (Proc.devRef .tc main_arg6) := (W1_arr m c 6).trans (((dat0 (Vr0 m) c).arrAt_in 6 rfl _).trans (A_eq0 (Vr0 m) c 6))
    _ = m ((c : Thread nD τ).loc main_arg6) := rfl

/-! ## The proof data family and the thread state -/

/-- No pipeline has a prefetched table. -/
abbrev noTables : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) noTables p) c
  | ⟨0, _⟩ => fun c => dat0 (Vr0 m) c
  | ⟨1, _⟩ => fun c => dat1 (Vr1 m) c
abbrev 𝒱₀ : Variants := Variants.none
abbrev L : GSem nD τ sig → Finset Unit := fun _ => ∅
abbrev lv : GSem nD τ sig → Unit → ℕ := fun _ _ => 0
/-- What rides beside the buffers: the core's generator register at some state and its dues, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The second region's arrays: one buffer behind two windows -/

section Shared
variable (V : (c : Dev nD) → (b : Ref sig .tc) → Buf (Elt F) ((c : Thread nD τ).loc b))

/-- The distinct buffers behind the second region's three windows are two: the feature table's and the result's. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_v1) ↦{fullShare} V' main_v1)) := by
  unfold Pipeline.arrBufs
  exact bigSep_eq_bigSepL_of_eq [main_v0, main_v1] (by decide) (by decide) _

/-- The proof data's arrays, window by window: the feature table's buffer at the left half share and at the right half
    share, the result's at the full share. -/
theorem arrays1_eq (c : Dev nD) (Fa : (w : Fin cfg1.W) → Buf (Elt F) ((cfg1.win w).arr.view.loc (c : Thread nD τ))) :
    ((dat1 V c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2)) := by
  unfold Dat.arrays
  rw [bigSep_W1]
  simp only [(arr_whole1 0).set_eq_univ, (arr_whole1 1).set_eq_univ, (arr_whole1 2).set_eq_univ]
  rfl

/-- ENTRY: a core's unscoped buffers at `V` are the second region's arrays at the proof data's entry contents — the
    feature table's full share split in its two halves, one per window that reads it — and the unscoped rest. -/
theorem entry1 (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  have hs : (unscopedBufs (Ix := Unit) (Name := ℕ) (U := UR sig nD τ) (Lvl := ℕ) c (V c) : sProp 𝕄)
      = iprop(Pipeline.arrBufs spec1 c (V c) ∗ Pipeline.unscopedRest spec1 c (V c)) :=
    Pipeline.unscopedBufs_split₀ cfgs (1 : Fin 2) winFacts₀1.arr_unscoped c (V c)
  rw [hs, arrBufs1_eq, arrays1_eq]
  iintro ⟨⟨H0, H1⟩, Hr⟩
  ihave H0' := (pointsTo_share (PosShare.mem_left_op_right fullShare)).1 $$ H0
  icases H0' with ⟨Hl, Hrr⟩
  isplitr [Hr]
  · isplitl [Hl]; · iexact Hl
    isplitl [Hrr]; · iexact Hrr
    iexact H1
  · iexact Hr

/-- EXIT: the arrays at what the pipeline leaves — the feature table as entered, at its two half shares, the result at its
    final contents — and the unscoped rest are the core's unscoped buffers at any valuation that has the result there
    and agrees with `V` elsewhere. -/
theorem exit1 (c : Dev nD) (V' : (b : Ref sig .tc) → Buf (Elt F) ((c : Thread nD τ).loc b))
    (h0 : V' main_v0 = V c main_v0) (h1 : V' main_v1 = (dat1 V c).arrAt 2 cfg1.N)
    (hrest : ∀ b, b ∉ Finset.univ.image (Pipeline.arrRef spec1) → V' b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c V' : sProp 𝕄) := by
  have hs : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs (1 : Fin 2) winFacts₀1.arr_unscoped c V'
  rw [hs, arrBufs1_eq, arrays1_eq,
    (dat1 V c).arrAt_in 0 rfl cfg1.N, (dat1 V c).arrAt_in 1 rfl cfg1.N, h0, h1]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨Hl, Hrr, H1⟩, Hr⟩
  isplitr [Hr]
  · isplitl [Hl Hrr]
    · iapply (pointsTo_share (PosShare.mem_left_op_right fullShare)).2
      isplitl [Hl]; · iexact Hl
      iexact Hrr
    · iexact H1
  · iexact Hr

end Shared

/-! ## The regions as segments -/

set_option backward.isDefEq.respectTransparency.types false in
/-- The first region over the thread state: entered from every unscoped buffer as launched, left at `W1`. -/
def reg0 : Pipeline.RegionSeg (pcfgs (F := F)) noTables (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W1`, left at `W2`. Its windows
    share an array, so the arrays are sorted out of the unscoped buffers by `entry1` and put back by `exit1`. -/
def reg1 : Pipeline.RegionSeg (pcfgs (F := F)) noTables (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit : (unscopedBufs (Ix := Unit) (Name := ℕ) (U := UR sig nD τ) (Lvl := ℕ) c (Vr1 m c) : sProp 𝕄)
        ⊢ iprop((pdats m 1 c).arrays ((pdats m 1 c).arrAt · 0)
          ∗ Pipeline.unscopedRest (Ix := Unit) (Name := ℕ) (U := UR sig nD τ) (Lvl := ℕ) spec1 c (Vr1 m c)) := entry1 (Vr1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (Vr1 m c))
        ⊢ (unscopedBufs (Ix := Unit) (Name := ℕ) (U := UR sig nD τ) (Lvl := ℕ) c (Vr2 m c) : sProp 𝕄) :=
      exit1 (Vr1 m) c (Vr2 m c) (W2_of_ne m c main_v0 (by decide)) (W2_res m c)
        (fun b hb => W2_of_ne m c b fun e => hb (e ▸ (by decide : main_v1 ∈ Finset.univ.image (Pipeline.arrRef spec1))))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) noTables (pdats m) () defs₀ 𝒱₀ L lv) :=
  [ .region (reg0 m), .region (reg1 m) ]
/-- @main is the run of the two regions in order. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and in every final state each core's unscoped buffers hold the last boundary's contents `W2`:
    the arguments as launched, the result at what the second region's write-backs leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) noTables (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The frame: every argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun r h c => ⟨(h c _ (mem_uc main_arg0 (by decide))).trans (W2_main_arg0 m c),
    (h c _ (mem_uc main_arg1 (by decide))).trans (W2_main_arg1 m c),
    (h c _ (mem_uc main_arg2 (by decide))).trans (W2_main_arg2 m c),
    (h c _ (mem_uc main_arg3 (by decide))).trans (W2_main_arg3 m c),
    (h c _ (mem_uc main_arg4 (by decide))).trans (W2_main_arg4 m c),
    (h c _ (mem_uc main_arg5 (by decide))).trans (W2_main_arg5 m c),
    (h c _ (mem_uc main_arg6 (by decide))).trans (W2_main_arg6 m c)⟩) (run m ρ)

end Cert.KernelIdeal.Fr

end
-- ==== Proof.Affinity.lean ====
/-
  The function both programs compute, entry by entry, on the extended reals.

  Each of the N input rows (two numbers) goes through a three-layer perceptron: two affine maps each followed by the
  positive part, then a third affine map, giving a feature row of 64 numbers. The affinity of rows r and c is the inner
  product of their feature rows. The result's row r is the softmax of the affinities of r with every row: with m the
  largest affinity of the row, entry c is exp(s c - m) divided by the sum over all c' of exp(s c' - m).

  The layers are stated for any number of rows, because one program evaluates them on all rows at once and the other
  block of rows by block of rows; an entry depends only on its own input row (`feat_congr`).
-/
import Idealize.ShloMosaic.PureOps.Ideal.Laws
import Idealize.ShloMosaic.Lib.ValueIdx

noncomputable section

open scoped BigOperators

namespace Cert.Affinity

open Idealize.ShloMosaic Idealize.ShloMosaic.ValueIdx

variable {M M' : Nat}

/-- The first layer at row `r`, unit `j`: the positive part of `x r · W1 (·, j) + b1 j`. -/
def hid1 (x : (⟨2, ![M, 2]⟩ : Shape).Idx → EReal) (W1 : (⟨2, ![2, 32]⟩ : Shape).Idx → EReal)
    (b1 : (⟨1, ![32]⟩ : Shape).Idx → EReal) (r : Fin M) (j : Fin 32) : EReal :=
  max ((∑ k : Fin 2, x (ix2 r k) * W1 (ix2 k j)) + b1 (ix1 j)) 0

/-- The second layer at row `r`, unit `j`. -/
def hid2 (x : (⟨2, ![M, 2]⟩ : Shape).Idx → EReal) (W1 : (⟨2, ![2, 32]⟩ : Shape).Idx → EReal)
    (b1 : (⟨1, ![32]⟩ : Shape).Idx → EReal) (W2 : (⟨2, ![32, 64]⟩ : Shape).Idx → EReal)
    (b2 : (⟨1, ![64]⟩ : Shape).Idx → EReal) (r : Fin M) (j : Fin 64) : EReal :=
  max ((∑ k : Fin 32, hid1 x W1 b1 r k * W2 (ix2 k j)) + b2 (ix1 j)) 0

/-- The feature row of input row `r`, at coordinate `j`: the third affine map, no positive part. -/
def feat (x : (⟨2, ![M, 2]⟩ : Shape).Idx → EReal) (W1 : (⟨2, ![2, 32]⟩ : Shape).Idx → EReal)
    (b1 : (⟨1, ![32]⟩ : Shape).Idx → EReal) (W2 : (⟨2, ![32, 64]⟩ : Shape).Idx → EReal)
    (b2 : (⟨1, ![64]⟩ : Shape).Idx → EReal) (W3 : (⟨2, ![64, 64]⟩ : Shape).Idx → EReal)
    (b3 : (⟨1, ![64]⟩ : Shape).Idx → EReal) (r : Fin M) (j : Fin 64) : EReal :=
  (∑ k : Fin 64, hid2 x W1 b1 W2 b2 r k * W3 (ix2 k j)) + b3 (ix1 j)

/-- A feature row depends only on its own input row: two arrays that agree on a row of each give the same features. -/
theorem feat_congr (x : (⟨2, ![M, 2]⟩ : Shape).Idx → EReal) (x' : (⟨2, ![M', 2]⟩ : Shape).Idx → EReal)
    (W1 : (⟨2, ![2, 32]⟩ : Shape).Idx → EReal) (b1 : (⟨1, ![32]⟩ : Shape).Idx → EReal)
    (W2 : (⟨2, ![32, 64]⟩ : Shape).Idx → EReal) (b2 : (⟨1, ![64]⟩ : Shape).Idx → EReal)
    (W3 : (⟨2, ![64, 64]⟩ : Shape).Idx → EReal) (b3 : (⟨1, ![64]⟩ : Shape).Idx → EReal)
    (r : Fin M) (r' : Fin M') (h : ∀ k : Fin 2, x (ix2 r k) = x' (ix2 r' k)) (j : Fin 64) :
    feat x W1 b1 W2 b2 W3 b3 r j = feat x' W1 b1 W2 b2 W3 b3 r' j := by
  unfold feat hid2 hid1
  simp only [h]

/-- The affinity of two feature rows: their inner product. -/
def score (q k : Fin 64 → EReal) : EReal := ∑ d : Fin 64, q d * k d

/-- The largest entry of a row, as the fold of `max` from the value of the word of −∞. -/
def rowMax {N : Nat} (s : Fin N → EReal) : EReal :=
  (Finset.univ : Finset (Fin N)).fold max (Ideal.ofBits .f32 0xFF800000#32) s

/-- The softmax of a row at position `c`. -/
def softRow {N : Nat} (s : Fin N → EReal) (c : Fin N) : EReal :=
  Ideal.div (Ideal.exp (s c - rowMax s)) (∑ c' : Fin N, Ideal.exp (s c' - rowMax s))

/-- The result at `(r, c)` from the table of feature rows: row `r` of the softmax of the affinities. -/
def result {N : Nat} (h : Fin N → Fin 64 → EReal) (r c : Fin N) : EReal :=
  softRow (fun c' => score (h r) (h c')) c

/-- The row maximum is at least the value the fold starts from. -/
theorem start_le_rowMax {N : Nat} (s : Fin N → EReal) : Ideal.ofBits .f32 0xFF800000#32 ≤ rowMax s :=
  (Finset.le_fold_max _).mpr (Or.inl le_rfl)

end Cert.Affinity

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«151815_j9320079033049_2_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.LibMatmulNT.lean ====
/-
  The product of an M×K matrix with the transpose of an N×K matrix on the extended reals, and the hardware matrix
  product with the dimension numbers "contract axis 1 of both operands" read at one entry: into a zero accumulator it
  is the plain sum over the K contracted positions of the products of the two rows' entries.
-/
import Idealize.ShloMosaic.Lib.ValueIdx
import Idealize.ShloMosaic.PureOps.Ideal.Laws

noncomputable section

open scoped BigOperators

namespace Cert.Lib.MatmulNT

open Idealize.ShloMosaic Idealize.ShloMosaic.ValueIdx

/-- `x · wᵀ`: entry (r, n) is the sum over k of `x (r, k) * w (n, k)`. -/
def mulNT {M N K : Nat} (x : (⟨2, ![M, K]⟩ : Shape).Idx → EReal) (w : (⟨2, ![N, K]⟩ : Shape).Idx → EReal) :
    (⟨2, ![M, N]⟩ : Shape).Idx → EReal :=
  fun i => ∑ c : Fin K, x (ix2 (i 0 : Fin M) c) * w (ix2 (i 1 : Fin N) c)

theorem mulNT_apply {M N K : Nat} (x : (⟨2, ![M, K]⟩ : Shape).Idx → EReal) (w : (⟨2, ![N, K]⟩ : Shape).Idx → EReal)
    (a : Fin M) (b : Fin N) : mulNT x w (ix2 a b) = ∑ c : Fin K, x (ix2 a c) * w (ix2 b c) := rfl

/-- A matrix product contracting axis 1 of an M×K operand with axis 1 of an N×K operand, accumulated into the zero
    splat, read at entry (a, b) at the ideal values: the contraction index has one axis of extent K, and at position c
    the left operand is read at (a, c), the right one at (b, c). -/
theorem matmul_zero_nt_apply {M N K : Nat} {φ₁ φ₂ : FTy}
    (wf : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    FloatOps.matmul (⟨[1], [1], [0], [0], [], [], wf⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun c _ => ?_
  have hc := contrEquiv1_symm_val
    (⟨[1], [1], [0], [0], [], [], wf⟩ : DotDims ⟨2, ![M, K]⟩ ⟨2, ![N, K]⟩ ⟨2, ![M, N]⟩) K rfl rfl c
  have hl : (⟨[1], [1], [0], [0], [], [], wf⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], wf⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.Lib.MatmulNT

end
-- ==== Proof.LibPoolForms.lean ====
/-
  Index forms of vector operations on the extended reals, at explicit coordinates and for any extents: the sum along
  the rows and the sum down the columns of a matrix started from the zero word, the maximum along the rows of a matrix
  started from the word of −∞, the broadcast of a one-entry matrix over a whole matrix, and the exponential read at an
  index.  The three reductions take the side condition on the starting word as the plain equation of two words of the format's width.
-/
import Idealize.ShloMosaic.Lib.ValueIdx
import Idealize.ShloMosaic.Lib.Pipeline.Value
import Idealize.ShloMosaic.PureOps.Ideal.Laws

noncomputable section

open scoped BigOperators

namespace Cert.Lib.PoolForms

open Idealize.ShloMosaic Idealize.ShloMosaic.ValueIdx

variable {α : Type}

/-- The sum down the columns of an a×b array, started from the zero word, read at column k: the sum over the a rows
    of the entries of that column. -/
theorem colSum_apply {a b : Nat} (src : FVec Ideal ⟨2, ![a, b]⟩ .f32)
    (h : (⟨2, ![a, b]⟩ : Shape).Reduces [0] ⟨1, ![b]⟩) (hφ : FKind.Formats .f32)
    (hacc : (0x00000000#32 : BitVec FTy.f32.bits) = 0x00000000#32) (k : Fin b) :
    multiReduction (F := Ideal) .add [0] ⟨1, ![b]⟩ src 0x00000000#32 h hφ hacc (ix1 k) = ∑ r : Fin a, src (ix2 r k) := by
  refine (Ideal.multiReduction_add_single src _ h hφ hacc (ix1 k)).trans ?_
  refine Finset.sum_congr rfl fun r _ => congrArg src ?_
  funext ax; apply Fin.ext
  match ax with
  | ⟨0, _⟩ => rfl
  | ⟨1, _⟩ => rfl

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = 0x00000000#32) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- The maximum along the rows of an a×b array started from the word of −∞, read at row r: the fold of max over the
    row's entries, from the value of that word. -/
theorem rowMax_apply {a b : Nat} (src : FVec Ideal ⟨2, ![a, b]⟩ .f32)
    (h : (⟨2, ![a, b]⟩ : Shape).Reduces [1] ⟨1, ![a]⟩) (hφ : FKind.Formats .f32)
    (hacc : (0xFF800000#32 : BitVec FTy.f32.bits) = 0xFF800000#32) (r : Fin a) :
    multiReduction (F := Ideal) .maximumf [1] ⟨1, ![a]⟩ src 0xFF800000#32 h hφ hacc (ix1 r)
      = (Finset.univ : Finset (Fin b)).fold max (Ideal.ofBits .f32 0xFF800000#32) (fun k => src (ix2 r k)) := by
  refine (Ideal.multiReduction_maximumf_single src 0xFF800000#32 h hφ hacc (ix1 r)).trans ?_
  refine Finset.fold_congr fun k _ => congrArg src ?_
  funext ax; apply Fin.ext
  match ax with
  | ⟨0, _⟩ => rfl
  | ⟨1, _⟩ => rfl

/-- A one-entry matrix [1, 1] broadcast to [a, b] reads its one entry everywhere. -/
theorem broadcastTo_11_ab_apply {a b : Nat} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The exponential of a vector reads, at an index, the exponential of the entry. -/
theorem exp_apply {s : Shape} {φ : FTy} (a : FVec Ideal s φ) (i : s.Idx) : exp a i = Ideal.exp (a i) := rfl

end Cert.Lib.PoolForms

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.PayloadForms.lean ====
/-
  The two kernel bodies' arithmetic, read entry by entry on the extended reals.

  The first body is the three-layer perceptron on a block of 1024 input rows: its stored value at row p, coordinate j
  is the feature of input row p at j. The second body takes a block of 128 feature rows q and the whole table k of
  16384 feature rows, and its stored value at (p, c) is the softmax, along c, of the inner products of row p of q with
  every row of k.
-/
import proofs.«151815_j9320079033049_2_alg».proof.Proof.Gen.KernelIdeal.Skeleton
import proofs.«151815_j9320079033049_2_alg».proof.Proof.Affinity
import proofs.«151815_j9320079033049_2_alg».proof.Proof.LibAffineBlock
import proofs.«151815_j9320079033049_2_alg».proof.Proof.LibMatmulNT
import proofs.«151815_j9320079033049_2_alg».proof.Proof.LibPoolForms
import proofs.«151815_j9320079033049_2_alg».proof.Proof.LibColumnForms
import Idealize.ShloMosaic.Lib.ValueLayout

noncomputable section

open scoped BigOperators

namespace Cert.Affinity.Payload

open Idealize.ShloMosaic Idealize.ShloMosaic.ValueIdx

variable {M K N : Nat} {φ₁ φ₂ : FTy}

/-- A matrix product into the zero accumulator plus a bias vector, cast to one row and broadcast over the rows, at
    the entry (r, j): the textbook sum plus the bias at j. -/
theorem affine_vec_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (hsc : (⟨1, ![N]⟩ : Shape).ShapeCasts ⟨2, ![1, N]⟩)
    (hb : (⟨2, ![1, N]⟩ : Shape).Broadcasts ⟨2, ![M, N]⟩) (r : Fin M) (j : Fin N) :
    addf (matmul d prec x W (constant (F := Ideal) ⟨2, ![M, N]⟩ .f32 0x00000000#32))
        (broadcastTo ⟨2, ![M, N]⟩ (shapeCast ⟨2, ![1, N]⟩ b hsc) hb) (ix2 r j)
      = (∑ k : Fin K, x (ix2 r k) * W (ix2 k j)) + b (ix1 j) := by
  rw [Cert.LibAffineBlock.affine_apply d hlc hrc hln hrn hlb hrb prec x W _ hb r j,
    shapeCast_a_1a_apply b hsc (0 : Fin 1) j]

/-- The positive part, written as the maximum against the splat of the zero word, at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  exact congrArg (max (v i)) Ideal.ofBits_zero_f32

/-- The first kernel body's stored value at row p, coordinate j: the feature of input row p at j. -/
theorem mlp_apply (x : Vec Ideal Cert.KernelIdeal.S1024x2 .f32) (w1 : Vec Ideal Cert.KernelIdeal.S2x32 .f32)
    (b1 : Vec Ideal Cert.KernelIdeal.S32 .f32) (w2 : Vec Ideal Cert.KernelIdeal.S32x64 .f32)
    (b2 : Vec Ideal Cert.KernelIdeal.S64 .f32) (w3 : Vec Ideal Cert.KernelIdeal.S64x64 .f32)
    (b3 : Vec Ideal Cert.KernelIdeal.S64 .f32) (p : Fin 1024) (j : Fin 64) :
    Cert.KernelIdeal.Gen.k0_pay1 (F := Ideal) x w1 b1 w2 b2 w3 b3 (ix2 p j)
      = Cert.Affinity.feat x w1 b1 w2 b2 w3 b3 p j := by
  unfold Cert.KernelIdeal.Gen.k0_pay1 Cert.Affinity.feat Cert.Affinity.hid2 Cert.Affinity.hid1
  beta_reduce
  rw [truncf_apply]
  refine (affine_vec_apply Cert.KernelIdeal.dot_S1024x64_S64x64_S1024x64_1_0_0_1_n_n rfl rfl rfl rfl rfl rfl none _ w3 b3
    _ _ p j).trans ?_
  refine congrArg (fun t => t + b3 (ix1 j)) (Finset.sum_congr rfl fun k₃ _ => congrArg (fun t => t * w3 (ix2 k₃ j)) ?_)
  rw [relu_apply]
  refine congrArg (fun t => max t 0) ?_
  refine (affine_vec_apply Cert.KernelIdeal.dot_S1024x32_S32x64_S1024x64_1_0_0_1_n_n rfl rfl rfl rfl rfl rfl none _ w2 b2
    _ _ p k₃).trans ?_
  refine congrArg (fun t => t + b2 (ix1 k₃)) (Finset.sum_congr rfl fun k₂ _ => congrArg (fun t => t * w2 (ix2 k₂ k₃)) ?_)
  rw [relu_apply]
  refine congrArg (fun t => max t 0) ?_
  exact affine_vec_apply Cert.KernelIdeal.dot_S1024x2_S2x32_S1024x32_1_0_0_1_n_n rfl rfl rfl rfl rfl rfl none x w1 b1
    _ _ p k₂

/-- The row maximum (started from the word of −∞), cast to a column and broadcast along the rows, at (p, c): the
    fold of max over row p. -/
theorem rowMax_bcast_apply {a b : Nat} (s : FVec Ideal ⟨2, ![a, b]⟩ .f32)
    (h : (⟨2, ![a, b]⟩ : Shape).Reduces [1] ⟨1, ![a]⟩) (hφ : FKind.Formats .f32)
    (hacc : (0xFF800000#32 : BitVec FTy.f32.bits) = 0xFF800000#32)
    (hsc : (⟨1, ![a]⟩ : Shape).ShapeCasts ⟨2, ![a, 1]⟩) (hbc : (⟨2, ![a, 1]⟩ : Shape).Broadcasts ⟨2, ![a, b]⟩)
    (p : Fin a) (c : Fin b) :
    broadcastTo ⟨2, ![a, b]⟩
        (shapeCast ⟨2, ![a, 1]⟩ (multiReduction (F := Ideal) .maximumf [1] ⟨1, ![a]⟩ s 0xFF800000#32 h hφ hacc) hsc) hbc (ix2 p c)
      = Cert.Affinity.rowMax (fun c' : Fin b => s (ix2 p c')) := by
  rw [Cert.Lib.ColumnForms.broadcastTo_a1_ab_apply, Cert.Lib.ColumnForms.shapeCast_a_a1_apply,
    Cert.Lib.PoolForms.rowMax_apply s h hφ hacc p]
  rfl

/-- The row sum (started from the zero word), cast to a column and broadcast along the rows, at (p, c): the sum of
    row p. -/
theorem rowSum_bcast_apply {a b : Nat} (e : FVec Ideal ⟨2, ![a, b]⟩ .f32)
    (h : (⟨2, ![a, b]⟩ : Shape).Reduces [1] ⟨1, ![a]⟩) (hφ : FKind.Formats .f32)
    (hacc : (0x00000000#32 : BitVec FTy.f32.bits) = 0x00000000#32)
    (hsc : (⟨1, ![a]⟩ : Shape).ShapeCasts ⟨2, ![a, 1]⟩) (hbc : (⟨2, ![a, 1]⟩ : Shape).Broadcasts ⟨2, ![a, b]⟩)
    (p : Fin a) (c : Fin b) :
    broadcastTo ⟨2, ![a, b]⟩
        (shapeCast ⟨2, ![a, 1]⟩ (multiReduction (F := Ideal) .add [1] ⟨1, ![a]⟩ e 0x00000000#32 h hφ hacc) hsc) hbc (ix2 p c)
      = ∑ c' : Fin b, e (ix2 p c') := by
  rw [Cert.Lib.ColumnForms.broadcastTo_a1_ab_apply, Cert.Lib.ColumnForms.shapeCast_a_a1_apply,
    Cert.Lib.PoolForms.rowSum_apply e h hφ hacc p]

/-- The exponential of an array minus a second one, at an entry. -/
theorem exp_sub_apply {s : Shape} (x y : FVec Ideal s .f32) (i : s.Idx) :
    exp (subf x y) i = Ideal.exp (x i - y i) := rfl

/-- The softmax along the rows of an a×b array of scores, as the second body writes it (row maximum, shifted
    exponentials, their row sum, the quotient), at (p, c): the softmax of row p at c. -/
theorem softmax_vec_apply {a b : Nat} (s : FVec Ideal ⟨2, ![a, b]⟩ .f32)
    (h : (⟨2, ![a, b]⟩ : Shape).Reduces [1] ⟨1, ![a]⟩) (hφ hφ' : FKind.Formats .f32)
    (hacc : (0xFF800000#32 : BitVec FTy.f32.bits) = 0xFF800000#32)
    (hacc' : (0x00000000#32 : BitVec FTy.f32.bits) = 0x00000000#32)
    (hsc : (⟨1, ![a]⟩ : Shape).ShapeCasts ⟨2, ![a, 1]⟩) (hbc : (⟨2, ![a, 1]⟩ : Shape).Broadcasts ⟨2, ![a, b]⟩)
    (p : Fin a) (c : Fin b) :
    divf
        (exp (subf s (broadcastTo ⟨2, ![a, b]⟩
          (shapeCast ⟨2, ![a, 1]⟩ (multiReduction (F := Ideal) .maximumf [1] ⟨1, ![a]⟩ s 0xFF800000#32 h hφ hacc) hsc) hbc)))
        (broadcastTo ⟨2, ![a, b]⟩
          (shapeCast ⟨2, ![a, 1]⟩
            (multiReduction (F := Ideal) .add [1] ⟨1, ![a]⟩
              (exp (subf s (broadcastTo ⟨2, ![a, b]⟩
                (shapeCast ⟨2, ![a, 1]⟩ (multiReduction (F := Ideal) .maximumf [1] ⟨1, ![a]⟩ s 0xFF800000#32 h hφ hacc) hsc) hbc)))
              0x00000000#32 h hφ' hacc') hsc) hbc) (ix2 p c)
      = Cert.Affinity.softRow (fun c' : Fin b => s (ix2 p c')) c := by
  have he : ∀ c' : Fin b,
      exp (subf s (broadcastTo ⟨2, ![a, b]⟩
          (shapeCast ⟨2, ![a, 1]⟩ (multiReduction (F := Ideal) .maximumf [1] ⟨1, ![a]⟩ s 0xFF800000#32 h hφ hacc) hsc) hbc))
          (ix2 p c')
        = Ideal.exp (s (ix2 p c') - Cert.Affinity.rowMax (fun c'' : Fin b => s (ix2 p c''))) := fun c' =>
    (exp_sub_apply _ _ _).trans
      (congrArg (fun m => Ideal.exp (s (ix2 p c') - m)) (rowMax_bcast_apply s h hφ hacc hsc hbc p c'))
  rw [divf_apply, rowSum_bcast_apply _ h hφ' hacc' hsc hbc p c, he c]
  unfold Cert.Affinity.softRow
  exact congrArg (Ideal.div _) (Finset.sum_congr rfl fun c' _ => he c')

/-- The second kernel body's stored value at (p, c): the softmax, along c, of the inner products of row p of the
    block q with every row of the table k. -/
theorem softmax_apply (q : Vec Ideal Cert.KernelIdeal.S128x64 .bf16) (k : Vec Ideal Cert.KernelIdeal.S16384x64 .bf16)
    (p : Fin 128) (c : Fin 16384) :
    Cert.KernelIdeal.Gen.k1_pay1 (F := Ideal) q k (ix2 p c)
      = Cert.Affinity.softRow
          (fun c' : Fin 16384 => Cert.Affinity.score (fun d => q (ix2 p d)) (fun d => k (ix2 c' d))) c := by
  unfold Cert.KernelIdeal.Gen.k1_pay1
  beta_reduce
  rw [shapeCast_self, shapeCast_self]
  refine (softmax_vec_apply _ _ _ _ _ _ _ _ p c).trans ?_
  refine congrArg (fun s => Cert.Affinity.softRow s c) (funext fun c' => ?_)
  exact Cert.Lib.MatmulNT.matmul_zero_nt_apply _ none q k p c'

end Cert.Affinity.Payload

end
-- ==== Proof.Blocks.lean ====
/-
  What the two regions leave in their output arrays, at the ideal instance, as whole-array functions.

  The first kernel's point `t` writes rows 1024·t … 1024·t + 1023 of the feature table, each the perceptron of the
  input row of the same number (its seven input windows are the block of 1024 input rows and the six parameter arrays
  whole). The second kernel's point `t` writes rows 128·t … 128·t + 127 of the result, row r being the softmax of the
  affinities of feature row r with every feature row (its windows are the block of 128 feature rows and the table
  whole). The row blocks tile their arrays, so each array ends at one function of what the region was entered with.
-/
import proofs.«151815_j9320079033049_2_alg».proof.Proof.RunIdeal
import proofs.«151815_j9320079033049_2_alg».proof.Proof.PayloadForms
import proofs.«151815_j9320079033049_2_alg».proof.Proof.Affinity
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The first region: the feature table -/

/-- The feature table from the arrays the first region is entered with. -/
def feats (c : Dev nD) : S16384x64.Idx → EReal := fun i =>
  Cert.Affinity.feat (M := 16384) (V c main_arg0) (V c main_arg1) (V c main_arg2) (V c main_arg3) (V c main_arg4)
    (V c main_arg5) (V c main_arg6) (i 0) (i 1)

/-- The printed index maps over the grid: the input rows' window and the output window move with the point along the
    rows; every parameter window stays at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The block of input rows at point `t`: row `p` of the block is input row 1024·t + p. -/
theorem rows0 (c : Dev nD) (t : Fin cfg0.N) (p : Fin 1024) (hp : 1024 * t.val + p.val < 16384) (k : Fin 2) :
    iblk0 V c 0 t (ix2 p k) = V c main_arg0 (ix2 (⟨1024 * t.val + p.val, hp⟩ : Fin 16384) k) := by
  obtain ⟨e0, e1, -⟩ := idx0 t
  show V c main_arg0 (((cfg0.win 0).blk t).view.emb (ix2 p k)) = _
  refine congrArg _ (funext fun a => Fin.ext ?_)
  match a with
  | ⟨0, _⟩ => show win0_0.index t (0 : Fin 2) * 1024 + 1 * p.val = 1024 * t.val + p.val; omega
  | ⟨1, _⟩ => show win0_0.index t (1 : Fin 2) * 2 + 1 * k.val = k.val; omega

/-- Each parameter window's block is its whole array. -/
theorem whole0_1 (c : Dev nD) (t : Fin cfg0.N) : (iblk0 V c 1 t : S2x32.Idx → Elt Ideal .f32) = V c main_arg1 := by
  obtain ⟨-, -, e0, e1, -⟩ := idx0 t
  funext y
  show V c main_arg1 (((cfg0.win 1).blk t).view.emb y) = V c main_arg1 y
  refine congrArg _ (funext fun a => Fin.ext ?_)
  match a with
  | ⟨0, _⟩ => show win0_1.index t (0 : Fin 2) * 2 + 1 * (y 0).val = (y 0).val; omega
  | ⟨1, _⟩ => show win0_1.index t (1 : Fin 2) * 32 + 1 * (y 1).val = (y 1).val; omega
theorem whole0_2 (c : Dev nD) (t : Fin cfg0.N) : (iblk0 V c 2 t : S32.Idx → Elt Ideal .f32) = V c main_arg2 := by
  obtain ⟨-, -, -, -, e0, -⟩ := idx0 t
  funext y
  show V c main_arg2 (((cfg0.win 2).blk t).view.emb y) = V c main_arg2 y
  refine congrArg _ (funext fun a => Fin.ext ?_)
  match a with
  | ⟨0, _⟩ => show win0_2.index t (0 : Fin 1) * 32 + 1 * (y 0).val = (y 0).val; omega
theorem whole0_3 (c : Dev nD) (t : Fin cfg0.N) : (iblk0 V c 3 t : S32x64.Idx → Elt Ideal .f32) = V c main_arg3 := by
  obtain ⟨-, -, -, -, -, e0, e1, -⟩ := idx0 t
  funext y
  show V c main_arg3 (((cfg0.win 3).blk t).view.emb y) = V c main_arg3 y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 64 + 1 * (y 1).val = (y 1).val; omega
theorem whole0_4 (c : Dev nD) (t : Fin cfg0.N) : (iblk0 V c 4 t : S64.Idx → Elt Ideal .f32) = V c main_arg4 := by
  obtain ⟨-, -, -, -, -, -, -, e0, -⟩ := idx0 t
  funext y
  show V c main_arg4 (((cfg0.win 4).blk t).view.emb y) = V c main_arg4 y
  refine congrArg _ (funext fun a => Fin.ext ?_)
  match a with
  | ⟨0, _⟩ => show win0_4.index t (0 : Fin 1) * 64 + 1 * (y 0).val = (y 0).val; omega
theorem whole0_5 (c : Dev nD) (t : Fin cfg0.N) : (iblk0 V c 5 t : S64x64.Idx → Elt Ideal .f32) = V c main_arg5 := by
  obtain ⟨-, -, -, -, -, -, -, -, e0, e1, -⟩ := idx0 t
  funext y
  show V c main_arg5 (((cfg0.win 5).blk t).view.emb y) = V c main_arg5 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega
theorem whole0_6 (c : Dev nD) (t : Fin cfg0.N) : (iblk0 V c 6 t : S64.Idx → Elt Ideal .f32) = V c main_arg6 := by
  obtain ⟨-, -, -, -, -, -, -, -, -, -, e0, -⟩ := idx0 t
  funext y
  show V c main_arg6 (((cfg0.win 6).blk t).view.emb y) = V c main_arg6 y
  refine congrArg _ (funext fun a => Fin.ext ?_)
  match a with
  | ⟨0, _⟩ => show win0_6.index t (0 : Fin 1) * 64 + 1 * (y 0).val = (y 0).val; omega

/-- What point `t` of the first region writes back is block `t` of the feature table. -/
theorem flushed0 (c : Dev nD) (t : Fin cfg0.N) :
    (dat0 V c).flushed 7 t = ((cfg0.win 7).blk t).view.read (Elt Ideal) (feats V c) := by
  show (cfg0.win 7).cut (grid0.coords t) ((dat0 V c).after 7 t) = _
  rw [after0_7]
  unfold out0_7
  rw [View.canon_unit_zero zero2]
  simp only [View.ld_unit_zero (S := S1024x2) zero2, View.ld_unit_zero (S := S2x32) zero2, View.ld_unit_zero (S := S32) zero1,
    View.ld_unit_zero (S := S32x64) zero2, View.ld_unit_zero (S := S64) zero1, View.ld_unit_zero (S := S64x64) zero2]
  obtain ⟨-, -, -, -, -, -, -, -, -, -, -, e0, e1⟩ := idx0 t
  have ht : t.val < 16 := by have h : t.val < grid0.N := t.isLt; rw [N_0] at h; exact h
  funext j
  obtain ⟨p, q, rfl⟩ : ∃ (p : Fin 1024) (q : Fin 64), j = ix2 p q := ⟨j 0, j 1, eq_ix2 j⟩
  have hp : 1024 * t.val + p.val < 16384 := by have := p.isLt; omega
  have hrow : ((cfg0.win 7).blk t).view.emb (ix2 p q) = ix2 (⟨1024 * t.val + p.val, hp⟩ : Fin 16384) q := by
    funext a; apply Fin.ext
    match a with
    | ⟨0, _⟩ => show win0_7.index t (0 : Fin 2) * 1024 + 1 * p.val = 1024 * t.val + p.val; omega
    | ⟨1, _⟩ => show win0_7.index t (1 : Fin 2) * 64 + 1 * q.val = q.val; omega
  show k0_pay1 (F := Ideal) (iblk0 V c 0 t) (iblk0 V c 1 t) (iblk0 V c 2 t) (iblk0 V c 3 t) (iblk0 V c 4 t) (iblk0 V c 5 t) (iblk0 V c 6 t) (ix2 p q)
    = feats V c (((cfg0.win 7).blk t).view.emb (ix2 p q))
  refine (Cert.Affinity.Payload.mlp_apply _ _ _ _ _ _ _ p q).trans ?_
  rw [hrow, whole0_1 V c t, whole0_2 V c t, whole0_3 V c t, whole0_4 V c t, whole0_5 V c t, whole0_6 V c t]
  exact Cert.Affinity.feat_congr _ _ _ _ _ _ _ _ p ⟨1024 * t.val + p.val, hp⟩ (fun k => rows0 V c t p hp k) q

/-- An index of the feature table is in point `t`'s block iff each coordinate is in the block's range on its axis. -/
theorem mem_blk0 (t : Fin cfg0.N) (i : S16384x64.Idx) :
    i ∈ ((cfg0.win 7).blk t).view.set ↔ ∀ a : Fin 2, win0_7.index t a * S1024x64.size a ≤ (i a).val ∧ (i a).val < win0_7.index t a * S1024x64.size a + S1024x64.size a := by
  show i ∈ ((View.whole main_v0).slice (win0_7.rect t)).set ↔ _
  rw [View.set_slice_whole, Rect.mem_set_unit]
  exact Iff.rfl

/-- Every row of the feature table is in the block of the point numbered by the row's quotient by 1024. -/
theorem cover0 (i : S16384x64.Idx) :
    ∃ t : Fin cfg0.N, (cfg0.win 7).flush t = true ∧ i ∈ ((cfg0.win 7).blk t).view.set := by
  have hi0 : (i 0).val < 16384 := (i 0).isLt
  have hi1 : (i 1).val < 64 := (i 1).isLt
  obtain ⟨t, ht⟩ : ∃ t : Fin cfg0.N, t.val = (i 0).val / 1024 :=
    ⟨⟨(i 0).val / 1024, by show _ < grid0.N; rw [N_0]; omega⟩, rfl⟩
  obtain ⟨-, -, -, -, -, -, -, -, -, -, -, e0, e1⟩ := idx0 t
  refine ⟨t, flush0_7 t, ?_⟩
  rw [mem_blk0]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 64 ≤ (i 1).val ∧ (i 1).val < win0_7.index t (1 : Fin 2) * 64 + 64; omega

/-- THE FEATURE TABLE after the first region. -/
theorem table_eq (c : Dev nD) : (dat0 V c).arrAt 7 cfg0.N = feats V c :=
  (dat0 V c).arrAt_eq_of_cover 7 (feats V c) (fun t _ => flushed0 V c t) cover0

/-! ## The second region: the row softmax of the affinities -/

/-- The result from the feature table the second region is entered with. -/
def soft (c : Dev nD) : S16384x16384.Idx → EReal := fun i =>
  Cert.Affinity.result (N := 16384) (fun r d => V c main_v0 (ix2 r d)) (i 0) (i 1)

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The block of feature rows at point `t`: row `p` of the block is feature row 128·t + p. -/
theorem rows1 (c : Dev nD) (t : Fin cfg1.N) (p : Fin 128) (hp : 128 * t.val + p.val < 16384) (d : Fin 64) :
    iblk1 V c 0 t (ix2 p d) = V c main_v0 (ix2 (⟨128 * t.val + p.val, hp⟩ : Fin 16384) d) := by
  obtain ⟨e0, e1, -⟩ := idx1 t
  show V c main_v0 (((cfg1.win 0).blk t).view.emb (ix2 p d)) = _
  refine congrArg _ (funext fun a => Fin.ext ?_)
  match a with
  | ⟨0, _⟩ => show win1_0.index t (0 : Fin 2) * 128 + 1 * p.val = 128 * t.val + p.val; omega
  | ⟨1, _⟩ => show win1_0.index t (1 : Fin 2) * 64 + 1 * d.val = d.val; omega

/-- The whole-table window's block is the table. -/
theorem whole1_1 (c : Dev nD) (t : Fin cfg1.N) : (iblk1 V c 1 t : S16384x64.Idx → Elt Ideal .bf16) = V c main_v0 := by
  obtain ⟨-, -, e0, e1, -⟩ := idx1 t
  funext y
  show V c main_v0 (((cfg1.win 1).blk t).view.emb y) = V c main_v0 y
  refine congrArg _ (funext fun a => Fin.ext ?_)
  match a with
  | ⟨0, _⟩ => show win1_1.index t (0 : Fin 2) * 16384 + 1 * (y 0).val = (y 0).val; omega
  | ⟨1, _⟩ => show win1_1.index t (1 : Fin 2) * 64 + 1 * (y 1).val = (y 1).val; omega

set_option maxRecDepth 100000 in
/-- What point `t` of the second region writes back is block `t` of the result. -/
theorem flushed1 (c : Dev nD) (t : Fin cfg1.N) :
    (dat1 V c).flushed 2 t = ((cfg1.win 2).blk t).view.read (Elt Ideal) (soft V c) := by
  show (cfg1.win 2).cut (grid1.coords t) ((dat1 V c).after 2 t) = _
  rw [after1_2]
  unfold out1_2
  rw [View.canon_unit_zero zero2]
  simp only [View.ld_unit_zero (S := S128x64) zero2, View.ld_unit_zero (S := S16384x64) zero2]
  obtain ⟨-, -, -, -, e0, e1⟩ := idx1 t
  have ht : t.val < 128 := by have h : t.val < grid1.N := t.isLt; rw [N_1] at h; exact h
  funext j
  obtain ⟨p, q, rfl⟩ : ∃ (p : Fin 128) (q : Fin 16384), j = ix2 p q := ⟨j 0, j 1, eq_ix2 j⟩
  have hp : 128 * t.val + p.val < 16384 := by have := p.isLt; omega
  have hrow : ((cfg1.win 2).blk t).view.emb (ix2 p q) = ix2 (⟨128 * t.val + p.val, hp⟩ : Fin 16384) q := by
    funext a; apply Fin.ext
    match a with
    | ⟨0, _⟩ => show win1_2.index t (0 : Fin 2) * 128 + 1 * p.val = 128 * t.val + p.val; omega
    | ⟨1, _⟩ => show win1_2.index t (1 : Fin 2) * 16384 + 1 * q.val = q.val; omega
  show k1_pay1 (F := Ideal) (iblk1 V c 0 t) (iblk1 V c 1 t) (ix2 p q) = soft V c (((cfg1.win 2).blk t).view.emb (ix2 p q))
  refine (Cert.Affinity.Payload.softmax_apply _ _ p q).trans ?_
  have hq : (fun d : Fin 64 => iblk1 V c 0 t (ix2 p d)) = fun d => V c main_v0 (ix2 (⟨128 * t.val + p.val, hp⟩ : Fin 16384) d) :=
    funext fun d => rows1 V c t p hp d
  rw [hrow, hq, whole1_1 V c t]
  rfl

theorem mem_blk1 (t : Fin cfg1.N) (i : S16384x16384.Idx) :
    i ∈ ((cfg1.win 2).blk t).view.set ↔ ∀ a : Fin 2, win1_2.index t a * S128x16384.size a ≤ (i a).val ∧ (i a).val < win1_2.index t a * S128x16384.size a + S128x16384.size a := by
  show i ∈ ((View.whole main_v1).slice (win1_2.rect t)).set ↔ _
  rw [View.set_slice_whole, Rect.mem_set_unit]
  exact Iff.rfl

theorem cover1 (i : S16384x16384.Idx) :
    ∃ t : Fin cfg1.N, (cfg1.win 2).flush t = true ∧ i ∈ ((cfg1.win 2).blk t).view.set := by
  have hi0 : (i 0).val < 16384 := (i 0).isLt
  have hi1 : (i 1).val < 16384 := (i 1).isLt
  obtain ⟨t, ht⟩ : ∃ t : Fin cfg1.N, t.val = (i 0).val / 128 :=
    ⟨⟨(i 0).val / 128, by show _ < grid1.N; rw [N_1]; omega⟩, rfl⟩
  obtain ⟨-, -, -, -, e0, e1⟩ := idx1 t
  refine ⟨t, flush1_2 t, ?_⟩
  rw [mem_blk1]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 16384 ≤ (i 1).val ∧ (i 1).val < win1_2.index t (1 : Fin 2) * 16384 + 16384; omega

/-- THE RESULT after the second region. -/
theorem result_eq (c : Dev nD) : (dat1 V c).arrAt 2 cfg1.N = soft V c :=
  (dat1 V c).arrAt_eq_of_cover 2 (soft V c) (fun t _ => flushed1 V c t) cover1

/-! ## The run, read -/

variable (m : (ℓ : Loc nD τ sig) → Buf (Elt Ideal) ℓ)

/-- The result of the whole program as one function of the launch memory's argument arrays. -/
def out (c : Dev nD) : S16384x16384.Idx → EReal := fun i =>
  Cert.Affinity.result (N := 16384) (fun r d => Cert.Affinity.feat (M := 16384) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) r d) (i 0) (i 1)

/-- What the run leaves in the result's buffer is `out` of the launch memory. -/
theorem res_eq (c : Dev nD) : res (F := Ideal) m c = out m c := by
  unfold res
  rw [result_eq (Vr1 m) c]
  unfold soft
  have htab : Vr1 m c main_v0 = feats (Vr0 m) c := (W1_arr m c 7).trans (table_eq (Vr0 m) c)
  rw [htab]
  rfl

end Cert.KernelIdeal.Val

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«151815_j9320079033049_2_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«151815_j9320079033049_2_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.ReferenceForm.lean ====
/-
  The reference program's result, read entry by entry on the extended reals.

  The reference evaluates the three-layer perceptron on all 16384 input rows at once, forms the table of inner
  products of the feature rows, and takes the softmax of each row of the table: the largest entry of the row (a fold
  of max from −∞, then once more the maximum with −∞, which changes nothing), the exponentials of the entries minus
  it, their sum along the row (from zero), and the quotient. Its result at (r, c) is the specification's entry.
-/
import proofs.«151815_j9320079033049_2_alg».proof.Proof.Gen.ReferenceIdeal.Read
import proofs.«151815_j9320079033049_2_alg».proof.Proof.Affinity
import proofs.«151815_j9320079033049_2_alg».proof.Proof.LibHostAffine
import Idealize.ShloMosaic.PureOps.Reduce

noncomputable section

open scoped BigOperators

namespace Cert.Affinity.Ref

open Idealize.ShloMosaic Idealize.ShloMosaic.ValueIdx
open Cert.ReferenceIdeal Cert.ReferenceIdeal.Gen Cert.ReferenceIdeal.Read

/-- The reduced index r of an m×n array reduced along its rows, with the column coordinate k put back, is (r, k). -/
theorem lift_row_ix2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A reduce with a maximum body along the rows of an m×n array, from the scalar whose word is that of −∞, at row r:
    the largest entry of the row, as the specification folds it. -/
theorem hostRowMax_apply {m n : Nat} (y : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf y (constant (F := Ideal) (⟨0, ![]⟩ : Shape) .f32 0xFF800000#32) h' hu (ix1 r)
      = Cert.Affinity.rowMax (fun c : Fin n => y (ix2 r c)) := by
  rw [Host.reduce_eq_fold_single FloatOps.maximumf y _ h' h hu]
  have hf : (y ∘ h.lift (ix1 r)) = fun c : Fin n => y (ix2 r c) := funext fun k => congrArg y (lift_row_ix2 h r k)
  exact congrArg (fun f => Finset.fold max (Ideal.ofBits .f32 0xFF800000#32) f (Finset.univ : Finset (Fin n))) hf

/-- The reference's feature table at row r, coordinate d: the specification's feature of input row r. -/
theorem feat_apply (x0 : (⟨Cert.ReferenceIdeal.S16384x2, .f32⟩ : BufTy).Contents (Elt Ideal)) (x1 : (⟨Cert.ReferenceIdeal.S2x32, .f32⟩ : BufTy).Contents (Elt Ideal))
    (x2 : (⟨Cert.ReferenceIdeal.S32, .f32⟩ : BufTy).Contents (Elt Ideal)) (x3 : (⟨Cert.ReferenceIdeal.S32x64, .f32⟩ : BufTy).Contents (Elt Ideal))
    (x4 : (⟨Cert.ReferenceIdeal.S64, .f32⟩ : BufTy).Contents (Elt Ideal)) (x5 : (⟨Cert.ReferenceIdeal.S64x64, .f32⟩ : BufTy).Contents (Elt Ideal))
    (x6 : (⟨Cert.ReferenceIdeal.S64, .f32⟩ : BufTy).Contents (Elt Ideal)) (r : Fin 16384) (d : Fin 64) :
    val_main_v13 (F := Ideal) x0 x1 x2 x3 x4 x5 x6 (ix2 r d) = Cert.Affinity.feat x0 x1 x2 x3 x4 x5 x6 r d := by
  unfold val_main_v13 val_main_v10 val_main_v12 val_main_v11 Cert.Affinity.feat Cert.Affinity.hid2 Cert.Affinity.hid1
  refine (Cert.LibHostAffine.affine_apply dot_S16384x64_S64x64_S16384x64_1_0_0_1_n_n rfl rfl rfl rfl rfl rfl none _ x5 x6
    _ _ r d).trans ?_
  refine congrArg (fun t => t + x6 (ix1 d)) (Finset.sum_congr rfl fun k₃ _ => congrArg (fun t => t * x5 (ix2 k₃ d)) ?_)
  unfold val_main_v9 val_main_call1_v0 val_main_call1_cst
  refine (Cert.LibHostAffine.relu_apply _ _ _).trans (congrArg (fun t => max t 0) ?_)
  unfold val_main_v8 val_main_v5 val_main_v7 val_main_v6
  refine (Cert.LibHostAffine.affine_apply dot_S16384x32_S32x64_S16384x64_1_0_0_1_n_n rfl rfl rfl rfl rfl rfl none _ x3 x4
    _ _ r k₃).trans ?_
  refine congrArg (fun t => t + x4 (ix1 k₃)) (Finset.sum_congr rfl fun k₂ _ => congrArg (fun t => t * x3 (ix2 k₂ k₃)) ?_)
  unfold val_main_v4 val_main_call0_v0 val_main_call0_cst
  refine (Cert.LibHostAffine.relu_apply _ _ _).trans (congrArg (fun t => max t 0) ?_)
  unfold val_main_v3 val_main_v0 val_main_v2 val_main_v1
  exact Cert.LibHostAffine.affine_apply dot_S16384x2_S2x32_S16384x32_1_0_0_1_n_n rfl rfl rfl rfl rfl rfl none x0 x1 x2
    _ _ r k₂

/-- The table of inner products at (r, c): the inner product of the feature rows of r and c. -/
theorem score_apply (x0 : (⟨Cert.ReferenceIdeal.S16384x2, .f32⟩ : BufTy).Contents (Elt Ideal)) (x1 : (⟨Cert.ReferenceIdeal.S2x32, .f32⟩ : BufTy).Contents (Elt Ideal))
    (x2 : (⟨Cert.ReferenceIdeal.S32, .f32⟩ : BufTy).Contents (Elt Ideal)) (x3 : (⟨Cert.ReferenceIdeal.S32x64, .f32⟩ : BufTy).Contents (Elt Ideal))
    (x4 : (⟨Cert.ReferenceIdeal.S64, .f32⟩ : BufTy).Contents (Elt Ideal)) (x5 : (⟨Cert.ReferenceIdeal.S64x64, .f32⟩ : BufTy).Contents (Elt Ideal))
    (x6 : (⟨Cert.ReferenceIdeal.S64, .f32⟩ : BufTy).Contents (Elt Ideal)) (r c : Fin 16384) :
    val_main_v14 (F := Ideal) x0 x1 x2 x3 x4 x5 x6 (ix2 r c)
      = Cert.Affinity.score (fun d => Cert.Affinity.feat x0 x1 x2 x3 x4 x5 x6 r d) (fun d => Cert.Affinity.feat x0 x1 x2 x3 x4 x5 x6 c d) := by
  rw [val_main_v14_apply]
  unfold Cert.Affinity.score
  refine Finset.sum_congr rfl fun k _ => ?_
  have el : lidx_main_v14 (ix2 r c) k = ix2 r k :=
    funext fun a => Fin.ext (by match a with | ⟨0, _⟩ => rfl | ⟨1, _⟩ => rfl)
  have er : ridx_main_v14 (ix2 r c) k = ix2 c k :=
    funext fun a => Fin.ext (by match a with | ⟨0, _⟩ => rfl | ⟨1, _⟩ => rfl)
  rw [el, er, feat_apply, feat_apply]

/-- The table of inner products has its rows reduced into a vector of one entry per row. -/
theorem reduces_rows : S16384x16384.Reduces [1] S16384 := by decide

/-- The largest entry of row r of the table, after the further maximum with −∞. -/
theorem rowMax_apply (x0 : (⟨Cert.ReferenceIdeal.S16384x2, .f32⟩ : BufTy).Contents (Elt Ideal)) (x1 : (⟨Cert.ReferenceIdeal.S2x32, .f32⟩ : BufTy).Contents (Elt Ideal))
    (x2 : (⟨Cert.ReferenceIdeal.S32, .f32⟩ : BufTy).Contents (Elt Ideal)) (x3 : (⟨Cert.ReferenceIdeal.S32x64, .f32⟩ : BufTy).Contents (Elt Ideal))
    (x4 : (⟨Cert.ReferenceIdeal.S64, .f32⟩ : BufTy).Contents (Elt Ideal)) (x5 : (⟨Cert.ReferenceIdeal.S64x64, .f32⟩ : BufTy).Contents (Elt Ideal))
    (x6 : (⟨Cert.ReferenceIdeal.S64, .f32⟩ : BufTy).Contents (Elt Ideal)) (r : Fin 16384) :
    val_main_v17 (F := Ideal) x0 x1 x2 x3 x4 x5 x6 (ix1 r)
      = Cert.Affinity.rowMax (fun c : Fin 16384 => val_main_v14 (F := Ideal) x0 x1 x2 x3 x4 x5 x6 (ix2 r c)) := by
  have h15 : val_main_v15 (F := Ideal) x0 x1 x2 x3 x4 x5 x6 (ix1 r)
      = Cert.Affinity.rowMax (fun c : Fin 16384 => val_main_v14 (F := Ideal) x0 x1 x2 x3 x4 x5 x6 (ix2 r c)) := by
    unfold val_main_v15 val_main_cst
    exact hostRowMax_apply _ reducesTo_S16384x16384_S16384_d1 reduces_rows h_S_ r
  rw [val_main_v17_apply, val_main_v16_apply, val_main_cst_0_apply, h15]
  exact max_eq_right (Cert.Affinity.start_le_rowMax _)

/-- The shifted exponential at (r, c). -/
theorem exp_apply (x0 : (⟨Cert.ReferenceIdeal.S16384x2, .f32⟩ : BufTy).Contents (Elt Ideal)) (x1 : (⟨Cert.ReferenceIdeal.S2x32, .f32⟩ : BufTy).Contents (Elt Ideal))
    (x2 : (⟨Cert.ReferenceIdeal.S32, .f32⟩ : BufTy).Contents (Elt Ideal)) (x3 : (⟨Cert.ReferenceIdeal.S32x64, .f32⟩ : BufTy).Contents (Elt Ideal))
    (x4 : (⟨Cert.ReferenceIdeal.S64, .f32⟩ : BufTy).Contents (Elt Ideal)) (x5 : (⟨Cert.ReferenceIdeal.S64x64, .f32⟩ : BufTy).Contents (Elt Ideal))
    (x6 : (⟨Cert.ReferenceIdeal.S64, .f32⟩ : BufTy).Contents (Elt Ideal)) (r c : Fin 16384) :
    val_main_v21 (F := Ideal) x0 x1 x2 x3 x4 x5 x6 (ix2 r c)
      = Ideal.exp (val_main_v14 (F := Ideal) x0 x1 x2 x3 x4 x5 x6 (ix2 r c)
          - Cert.Affinity.rowMax (fun c' : Fin 16384 => val_main_v14 (F := Ideal) x0 x1 x2 x3 x4 x5 x6 (ix2 r c'))) := by
  have e : idx_main_v18 (idx_main_v19 (ix2 r c)) = ix1 r :=
    funext fun a => Fin.ext (by match a with | ⟨0, _⟩ => rfl)
  rw [val_main_v21_apply, val_main_v20_apply, val_main_v19_apply, val_main_v18_apply, e, rowMax_apply]
  rfl

/-- The sum of the shifted exponentials of row r. -/
theorem rowSum_apply (x0 : (⟨Cert.ReferenceIdeal.S16384x2, .f32⟩ : BufTy).Contents (Elt Ideal)) (x1 : (⟨Cert.ReferenceIdeal.S2x32, .f32⟩ : BufTy).Contents (Elt Ideal))
    (x2 : (⟨Cert.ReferenceIdeal.S32, .f32⟩ : BufTy).Contents (Elt Ideal)) (x3 : (⟨Cert.ReferenceIdeal.S32x64, .f32⟩ : BufTy).Contents (Elt Ideal))
    (x4 : (⟨Cert.ReferenceIdeal.S64, .f32⟩ : BufTy).Contents (Elt Ideal)) (x5 : (⟨Cert.ReferenceIdeal.S64x64, .f32⟩ : BufTy).Contents (Elt Ideal))
    (x6 : (⟨Cert.ReferenceIdeal.S64, .f32⟩ : BufTy).Contents (Elt Ideal)) (r : Fin 16384) :
    val_main_v22 (F := Ideal) x0 x1 x2 x3 x4 x5 x6 (ix1 r) = ∑ c : Fin 16384, val_main_v21 (F := Ideal) x0 x1 x2 x3 x4 x5 x6 (ix2 r c) := by
  rw [val_main_v22_apply, val_main_cst_1_apply]
  refine (congrArg (fun z => z + _) Ideal.ofBits_zero_f32).trans ((zero_add _).trans ?_)
  refine Finset.sum_congr rfl fun k _ => congrArg _ ?_
  exact funext fun a => Fin.ext (by match a with | ⟨0, _⟩ => rfl | ⟨1, _⟩ => rfl)

/-- The reference's result at (r, c): the specification's entry from the table of feature rows. -/
theorem result_apply (x0 : (⟨Cert.ReferenceIdeal.S16384x2, .f32⟩ : BufTy).Contents (Elt Ideal)) (x1 : (⟨Cert.ReferenceIdeal.S2x32, .f32⟩ : BufTy).Contents (Elt Ideal))
    (x2 : (⟨Cert.ReferenceIdeal.S32, .f32⟩ : BufTy).Contents (Elt Ideal)) (x3 : (⟨Cert.ReferenceIdeal.S32x64, .f32⟩ : BufTy).Contents (Elt Ideal))
    (x4 : (⟨Cert.ReferenceIdeal.S64, .f32⟩ : BufTy).Contents (Elt Ideal)) (x5 : (⟨Cert.ReferenceIdeal.S64x64, .f32⟩ : BufTy).Contents (Elt Ideal))
    (x6 : (⟨Cert.ReferenceIdeal.S64, .f32⟩ : BufTy).Contents (Elt Ideal)) (r c : Fin 16384) :
    val_main_v25 (F := Ideal) x0 x1 x2 x3 x4 x5 x6 (ix2 r c)
      = Cert.Affinity.result (fun r' d => Cert.Affinity.feat x0 x1 x2 x3 x4 x5 x6 r' d) r c := by
  have e : idx_main_v23 (idx_main_v24 (ix2 r c)) = ix1 r :=
    funext fun a => Fin.ext (by match a with | ⟨0, _⟩ => rfl)
  have key : val_main_v25 (F := Ideal) x0 x1 x2 x3 x4 x5 x6 (ix2 r c)
      = Cert.Affinity.softRow (fun c' : Fin 16384 => val_main_v14 (F := Ideal) x0 x1 x2 x3 x4 x5 x6 (ix2 r c')) c := by
    rw [val_main_v25_apply, val_main_v24_apply, val_main_v23_apply, e, rowSum_apply, exp_apply]
    unfold Cert.Affinity.softRow
    exact congrArg (Ideal.div _) (Finset.sum_congr rfl fun c' _ => exp_apply x0 x1 x2 x3 x4 x5 x6 r c')
  rw [key]
  unfold Cert.Affinity.result
  exact congrArg (fun s => Cert.Affinity.softRow s c) (funext fun c' => score_apply x0 x1 x2 x3 x4 x5 x6 r c')

end Cert.Affinity.Ref

end
-- ==== Proof.lean ====
/-
  The kernel computes, in two kernel regions, a three-layer perceptron of every input row (the feature table) and then,
  row by row, the softmax of the inner products of one feature row with all of them; the reference computes the same
  with whole-array operations. At the ideal instance a change of float format is the identity and a matrix product is
  the textbook sum, so both programs are ONE function of the seven argument arrays, entry by entry
  (`Cert.Affinity.result` of `Cert.Affinity.feat`): the kernel's result array is read off its two regions' write-backs
  block of rows by block of rows, the reference's off its run operation by operation. No algebraic law joins the two
  sides beyond `max (−∞) x = x`, so the precondition is never opened.

  The three frames: each kernel program runs as its two regions in order, every argument's buffer only ever read; the
  reference's run leaves its arguments as launched. The idealization rewrote no operation, so the preservation claim
  is `True`.
-/
import proofs.«151815_j9320079033049_2_alg».proof.Defs
import proofs.«151815_j9320079033049_2_alg».proof.Proof.Gen.Kernel
import proofs.«151815_j9320079033049_2_alg».proof.Proof.Gen.KernelIdeal
import proofs.«151815_j9320079033049_2_alg».proof.Proof.Gen.ReferenceIdeal
import proofs.«151815_j9320079033049_2_alg».proof.Proof.Gen.Pre_finite_inputs
import proofs.«151815_j9320079033049_2_alg».proof.Proof.Gen.ReferenceIdeal.Run
import proofs.«151815_j9320079033049_2_alg».proof.Proof.Gen.ReferenceIdeal.Read
import proofs.«151815_j9320079033049_2_alg».proof.Proof.RunBits
import proofs.«151815_j9320079033049_2_alg».proof.Proof.RunIdeal
import proofs.«151815_j9320079033049_2_alg».proof.Proof.Blocks
import proofs.«151815_j9320079033049_2_alg».proof.Proof.ReferenceForm
import Idealize.ShloMosaic.Adequacy
import Idealize.ShloMosaic.Init

noncomputable section

namespace Cert.Proof

open Idealize.ShloMosaic Idealize.ShloMosaic.ValueIdx Idealize.SL.Sem

/-- The word-level kernel program runs and leaves its arguments as launched. -/
theorem frame_kernel : Cert.frame_Kernel := fun m ρ _ => Cert.Kernel.Fr.frame m ρ

/-- So does its idealization. -/
theorem frame_kernelIdeal : Cert.frame_KernelIdeal := fun m ρ _ => Cert.KernelIdeal.Fr.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the softmax of the feature rows' affinities, as one function of the arguments. -/
theorem algebraic : Cert.algebraic_KernelIdeal_ReferenceIdeal := by
  intro m ρ m' ρ' _ hagree
  refine ⟨fun c => Cert.KernelIdeal.Val.out m c, ?_, ?_⟩
  · refine (θ_run Cert.KernelIdeal.defs _ _).mono (fun r h c => ⟨?_, (h c _ (Cert.KernelIdeal.Fr.mem_uc Cert.KernelIdeal.main_arg0 (by decide))).trans (Cert.KernelIdeal.Fr.W2_main_arg0 m c),
      (h c _ (Cert.KernelIdeal.Fr.mem_uc Cert.KernelIdeal.main_arg1 (by decide))).trans (Cert.KernelIdeal.Fr.W2_main_arg1 m c),
      (h c _ (Cert.KernelIdeal.Fr.mem_uc Cert.KernelIdeal.main_arg2 (by decide))).trans (Cert.KernelIdeal.Fr.W2_main_arg2 m c),
      (h c _ (Cert.KernelIdeal.Fr.mem_uc Cert.KernelIdeal.main_arg3 (by decide))).trans (Cert.KernelIdeal.Fr.W2_main_arg3 m c),
      (h c _ (Cert.KernelIdeal.Fr.mem_uc Cert.KernelIdeal.main_arg4 (by decide))).trans (Cert.KernelIdeal.Fr.W2_main_arg4 m c),
      (h c _ (Cert.KernelIdeal.Fr.mem_uc Cert.KernelIdeal.main_arg5 (by decide))).trans (Cert.KernelIdeal.Fr.W2_main_arg5 m c),
      (h c _ (Cert.KernelIdeal.Fr.mem_uc Cert.KernelIdeal.main_arg6 (by decide))).trans (Cert.KernelIdeal.Fr.W2_main_arg6 m c)⟩)
      (Cert.KernelIdeal.Fr.run m ρ)
    exact (h c _ (Cert.KernelIdeal.Fr.mem_uc Cert.KernelIdeal.main_v1 (by decide))).trans
      ((Cert.KernelIdeal.Fr.W2_res m c).trans (Cert.KernelIdeal.Val.res_eq m c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v25_eq, (hagree c).1, (hagree c).2.1, (hagree c).2.2.1, (hagree c).2.2.2.1, (hagree c).2.2.2.2.1, (hagree c).2.2.2.2.2.1, (hagree c).2.2.2.2.2.2]
    funext i
    obtain ⟨a, b, rfl⟩ : ∃ (a b : Fin 16384), i = ix2 a b := ⟨i 0, i 1, eq_ix2 i⟩
    exact Cert.Affinity.Ref.result_apply _ _ _ _ _ _ _ a b

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
